-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S2x1600000 : Shape := ⟨2, ![2, 1600000]⟩
abbrev S100000 : Shape := ⟨1, ![100000]⟩
abbrev S3x32 : Shape := ⟨2, ![3, 32]⟩
abbrev S32 : Shape := ⟨1, ![32]⟩
abbrev S32x32 : Shape := ⟨2, ![32, 32]⟩
abbrev S32x2 : Shape := ⟨2, ![32, 2]⟩
abbrev S2 : Shape := ⟨1, ![2]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S3x32 : S_.BroadcastsInDim S3x32 (![] : Fin 0 → Fin S3x32.rank)
  reducesTo_S3x32_S_d0_1 : S3x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg6 : FVec F S32 .f32) (main_arg7 : FVec F S32x2 .f32) (main_arg8 : FVec F S2 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x2 .f32 := Host.absf main_arg7
  let main_cst_8 : FVec F S_ .f32 := constant S_ .f32 0x7F800000#32
  let main_v25 : FVec F S32x2 .f32 := broadcastInDim S32x2 ![] bcast_S_S32x2 main_cst_8
  let main_v26 : IVec S32x2 1 := cmpf .olt main_v24 main_v25
  let main_c_9 : IVec S_ 1 := constantI S_ 1 1#1
  let main_v27 : IVec S_ 1 := (fun x v => Host.reduce IntOp.andi x v reducesTo_S32x2_S_d0_1 h_S_) main_v26 main_c_9
  let main_v28 : IVec S_ 1 := andi main_v23 main_v27
  let main_v29 : FVec F S2 .f32 := Host.absf main_arg8
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S100000x3 .f32) (main_arg1 : IVec S2x1600000 32) (main_arg2 : IVec S100000 32) (main_arg3 : FVec F S3x32 .f32) (main_arg4 : FVec F S32 .f32) (main_arg5 : FVec F S32x32 .f32) (main_arg6 : FVec F S32 .f32) (main_arg7 : FVec F S32x2 .f32) (main_arg8 : FVec F S2 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S3x32 .f32 := Host.absf main_arg3
  let main_cst_0 : FVec F S_ .f32 := constant S_ .f32 0x7F800000#32
  let main_v5 : FVec F S3x32 .f32 := broadcastInDim S3x32 ![] bcast_S_S3x32 main_cst_0
  let main_v6 : IVec S3x32 1 := cmpf .olt main_v4 main_v5
  let main_c_1 : IVec S_ 1 := constantI S_ 1 1#1
  let main_v7 : IVec S_ 1 := (fun x v => Host.reduce IntOp.andi x v reducesTo_S3x32_S_d0_1 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg5
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg6 main_arg7 main_arg8 main_v13 main_v16
-- ==== Kernel.lean ====
abbrev S100000x3 : Shape := ⟨2, ![100000, 3]⟩
abbrev S2x1600000 : Shape := ⟨2, ![2, 1600000]⟩
abbrev S100000 : Shape := ⟨1, ![100000]⟩
abbrev S3x32 : Shape := ⟨2, ![3, 32]⟩
abbrev S32 : Shape := ⟨1, ![32]⟩
abbrev S32x32 : Shape := ⟨2, ![32, 32]⟩
abbrev S32x2 : Shape := ⟨2, ![32, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S100000x32 : Shape := ⟨2, ![100000, 32]⟩
abbrev S5000x3 : Shape := ⟨2, ![5000, 3]⟩
abbrev S5000x32 : Shape := ⟨2, ![5000, 32]⟩
abbrev S1600000x32 : Shape := ⟨2, ![1600000, 32]⟩
abbrev S25000x128 : Shape := ⟨2, ![25000, 128]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S5000x128 : Shape := ⟨2, ![5000, 128]⟩
abbrev S512x32 : Shape := ⟨2, ![512, 32]⟩
abbrev S512 : Shape := ⟨1, ![512]⟩
abbrev S512x1 : Shape := ⟨2, ![512, 1]⟩
abbrev S512x2 : Shape := ⟨2, ![512, 2]⟩
abbrev S1x2 : Shape := ⟨2, ![1, 2]⟩

abbrev nBuf : Space → Nat
  | .hbm => 117
  | .vmem => 28
  | .smem => 0
  | _ => 0

abbrev bufTy : (tb : Table) → Fin (tcTables nBuf tb) → BufTy
  | .hbm, ⟨0, _⟩ => ⟨S100000x3, .f32⟩
  | .hbm, ⟨1, _⟩ => ⟨S2x1600000, .i32⟩
  | .hbm, ⟨2, _⟩ => ⟨S100000, .i32⟩
  | .hbm, ⟨3, _⟩ => ⟨S3x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S32x2, .f32⟩
  | .hbm, ⟨8, _⟩ => ⟨S2, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .f32⟩
  | .hbm, ⟨14, _⟩ => ⟨S1600000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000, .f32⟩
  | .hbm, ⟨43, _⟩ => ⟨S1600000, .f32⟩
  | .hbm, ⟨44, _⟩ => ⟨S1600000x1, .f32⟩
  | .hbm, ⟨45, _⟩ => ⟨S100000x32, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x32, .f32⟩
  | .hbm, ⟨55, _⟩ => ⟨S1600000x32, .f32⟩
  | .hbm, ⟨56, _⟩ => ⟨S1600000x32, .f32⟩
  | .hbm, ⟨57, _⟩ => ⟨S_, .f32⟩
  | .hbm, ⟨58, _⟩ => ⟨S100000x32, .f32⟩
  | .hbm, ⟨59, _⟩ => ⟨S1600000x1, .i32⟩
  | .hbm, ⟨60, _⟩ => ⟨S100000x32, .f32⟩
  | .hbm, ⟨61, _⟩ => ⟨S25000x128, .f32⟩
  | .hbm, ⟨62, _⟩ => ⟨S25000x128, .f32⟩
  | .hbm, ⟨63, _⟩ => ⟨S100000x32, .f32⟩
  | .hbm, ⟨64, _⟩ => ⟨S25000x128, .f32⟩
  | .hbm, ⟨65, _⟩ => ⟨S1x32, .f32⟩
  | .hbm, ⟨66, _⟩ => ⟨S4x32, .f32⟩
  | .hbm, ⟨67, _⟩ => ⟨S128, .f32⟩
  | .hbm, ⟨68, _⟩ => ⟨S1x128, .f32⟩
  | .hbm, ⟨69, _⟩ => ⟨S25000x128, .f32⟩
  | .hbm, ⟨70, _⟩ => ⟨S100000x32, .f32⟩
  | .hbm, ⟨71, _⟩ => ⟨S100000x32, .f32⟩
  | .hbm, ⟨72, _⟩ => ⟨S_, .i32⟩
  | .hbm, ⟨73, _⟩ => ⟨S1600000, .i32⟩
  | .hbm, ⟨74, _⟩ => ⟨S1600000, .i1⟩
  | .hbm, ⟨75, _⟩ => ⟨S_, .i32⟩
  | .hbm, ⟨76, _⟩ => ⟨S1600000, .i32⟩
  | .hbm, ⟨77, _⟩ => ⟨S1600000, .i32⟩
  | .hbm, ⟨78, _⟩ => ⟨S1600000, .i32⟩
  | .hbm, ⟨79, _⟩ => ⟨S1600000x1, .i32⟩
  | .hbm, ⟨80, _⟩ => ⟨S1600000x32, .f32⟩
  | .hbm, ⟨81, _⟩ => ⟨S1600000x32, .f32⟩
  | .hbm, ⟨82, _⟩ => ⟨S1600000x32, .f32⟩
  | .hbm, ⟨83, _⟩ => ⟨S_, .f32⟩
  | .hbm, ⟨84, _⟩ => ⟨S100000x32, .f32⟩
  | .hbm, ⟨85, _⟩ => ⟨S1600000x1, .i32⟩
  | .hbm, ⟨86, _⟩ => ⟨S100000x32, .f32⟩
  | .hbm, ⟨87, _⟩ => ⟨S25000x128, .f32⟩
  | .hbm, ⟨88, _⟩ => ⟨S25000x128, .f32⟩
  | .hbm, ⟨89, _⟩ => ⟨S100000x32, .f32⟩
  | .hbm, ⟨90, _⟩ => ⟨S25000x128, .f32⟩
  | .hbm, ⟨91, _⟩ => ⟨S1x32, .f32⟩
  | .hbm, ⟨92, _⟩ => ⟨S4x32, .f32⟩
  | .hbm, ⟨93, _⟩ => ⟨S128, .f32⟩
  | .hbm, ⟨94, _⟩ => ⟨S1x128, .f32⟩
  | .hbm, ⟨95, _⟩ => ⟨S25000x128, .f32⟩
  | .hbm, ⟨96, _⟩ => ⟨S100000x32, .f32⟩
  | .hbm, ⟨97, _⟩ => ⟨S_, .f32⟩
  | .hbm, ⟨98, _⟩ => ⟨S512x32, .f32⟩
  | .hbm, ⟨99, _⟩ => ⟨S100000x1, .i32⟩
  | .hbm, ⟨100, _⟩ => ⟨S512x32, .f32⟩
  | .hbm, ⟨101, _⟩ => ⟨S_, .f32⟩
  | .hbm, ⟨102, _⟩ => ⟨S100000, .f32⟩
  | .hbm, ⟨103, _⟩ => ⟨S_, .f32⟩
  | .hbm, ⟨104, _⟩ => ⟨S512, .f32⟩
  | .hbm, ⟨105, _⟩ => ⟨S100000x1, .i32⟩
  | .hbm, ⟨106, _⟩ => ⟨S512, .f32⟩
  | .hbm, ⟨107, _⟩ => ⟨S_, .f32⟩
  | .hbm, ⟨108, _⟩ => ⟨S512, .f32⟩
  | .hbm, ⟨109, _⟩ => ⟨S512, .f32⟩
  | .hbm, ⟨110, _⟩ => ⟨S512x1, .f32⟩
  | .hbm, ⟨111, _⟩ => ⟨S512x32, .f32⟩
  | .hbm, ⟨112, _⟩ => ⟨S512x32, .f32⟩
  | .hbm, ⟨113, _⟩ => ⟨S512x2, .f32⟩
  | .hbm, ⟨114, _⟩ => ⟨S1x2, .f32⟩
  | .hbm, ⟨115, _⟩ => ⟨S512x2, .f32⟩
  | .hbm, ⟨116, _⟩ => ⟨S512x2, .f32⟩
  | .local _ .vmem, ⟨0, _⟩ => ⟨S5000x3, .f32⟩
  | .local _ .vmem, ⟨1, _⟩ => ⟨S5000x3, .f32⟩
  | .local _ .vmem, ⟨2, _⟩ => ⟨S3x32, .f32⟩
  | .local _ .vmem, ⟨3, _⟩ => ⟨S5000x32, .f32⟩
  | .local _ .vmem, ⟨4, _⟩ => ⟨S5000x32, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x32, .f32⟩
  | .local _ .vmem, ⟨15, _⟩ => ⟨S5000x32, .f32⟩
  | .local _ .vmem, ⟨16, _⟩ => ⟨S32x32, .f32⟩
  | .local _ .vmem, ⟨17, _⟩ => ⟨S5000x32, .f32⟩
  | .local _ .vmem, ⟨18, _⟩ => ⟨S5000x32, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_c_8 : Ref sig .tc := ⟨.hbm, 72, rfl⟩
abbrev main_v53 : Ref sig .tc := ⟨.hbm, 73, rfl⟩
abbrev main_v54 : Ref sig .tc := ⟨.hbm, 74, rfl⟩
abbrev main_c_9 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_10 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_cst_11 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_cst_12 : Ref sig .tc := ⟨.hbm, 101, rfl⟩
abbrev main_v78 : Ref sig .tc := ⟨.hbm, 102, rfl⟩
abbrev main_cst_13 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_cst_14 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  inb_S5000x3_S5000x3_0_0 : ∀ a, (![0, 0] : Fin 2 → Nat) a + S5000x3.size a ≤ S5000x3.size a
  h_S5000x3 : 0 < S5000x3.numel
  bitsLt_bf16_f32 : FTy.bits .bf16 < FTy.bits .f32
  inb_S3x32_S3x32_0_0 : ∀ a, (![0, 0] : Fin 2 → Nat) a + S3x32.size a ≤ S3x32.size a
  h_S3x32 : 0 < S3x32.numel
  inb_S5000x32_S5000x32_0_0 : ∀ a, (![0, 0] : Fin 2 → Nat) a + S5000x32.size a ≤ S5000x32.size a
  h_S5000x32 : 0 < S5000x32.numel
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  shapeCasts_S100000x32_S25000x128 : S100000x32.ShapeCasts S25000x128
  bcast_S100000x1_S100000x32_0_1 : S100000x1.BroadcastsInDim S100000x32 (![0, 1] : Fin 2 → Fin S100000x32.rank)
  shapeCasts_S32_S1x32 : S32.ShapeCasts S1x32
  bcast_S1x32_S4x32_0_1 : S1x32.BroadcastsInDim S4x32 (![0, 1] : Fin 2 → Fin S4x32.rank)
  shapeCasts_S4x32_S128 : S4x32.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S25000x128_S100000x32 : S25000x128.ShapeCasts S100000x32
  shapeCasts_S5000x32_S5000x32 : S5000x32.ShapeCasts S5000x32
  inb_S32x32_S32x32_0_0 : ∀ a, (![0, 0] : Fin 2 → Nat) a + S32x32.size a ≤ S32x32.size a
  h_S32x32 : 0 < S32x32.numel
  bcast_S_S512x32 : S_.BroadcastsInDim S512x32 (![] : Fin 0 → Fin S512x32.rank)
  bcast_S_S512 : S_.BroadcastsInDim S512 (![] : Fin 0 → Fin S512.rank)
  bcast_S512_S512x1_0 : S512.BroadcastsInDim S512x1 (![0] : Fin 1 → Fin S512x1.rank)
  bcast_S512x1_S512x32_0_1 : S512x1.BroadcastsInDim S512x32 (![0, 1] : Fin 2 → Fin S512x32.rank)
  bcast_S2_S1x2_1 : S2.BroadcastsInDim S1x2 (![1] : Fin 1 → Fin S1x2.rank)
  bcast_S1x2_S512x2_0_1 : S1x2.BroadcastsInDim S512x2 (![0, 1] : Fin 2 → Fin S512x2.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x3_S3x32_S5000x32_1_0_0_1_n_n_wf : DotDims.WF S5000x3 S3x32 S5000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S5000x32_S32x32_S5000x32_1_0_0_1_n_n_wf : DotDims.WF S5000x32 S32x32 S5000x32 [1] [0] [0] [1] [] []
  scatter_S512x32_S100000x1_S100000x32_1_0_0_1_wf : ScatterDims.WF S512x32 S100000x1 S100000x32 [1] [0] [0] 1
  scatter_S512_S100000x1_S100000_n_0_0_1_wf : ScatterDims.WF S512 S100000x1 S100000 [] [0] [0] 1
  dot_S512x32_S32x2_S512x2_1_0_0_1_n_n_wf : DotDims.WF S512x32 S32x2 S512x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x3.size a ≤ S100000x3.size a
  hwx0_0 : ∀ i : grid0.Coords, EltTy.bits .f32 = 32 ∨ (Rect.block (s := S100000x3) S5000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x32.size a ≤ S3x32.size a
  hwx0_1 : ∀ i : grid0.Coords, EltTy.bits .f32 = 32 ∨ (Rect.block (s := S3x32) S3x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S100000x32.size a
  hwx0_2 : ∀ i : grid0.Coords, EltTy.bits .f32 = 32 ∨ (Rect.block (s := S100000x32) S5000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S25000x128.size a
  hwx1_0 : ∀ i : grid1.Coords, EltTy.bits .f32 = 32 ∨ (Rect.block (s := S25000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S25000x128.size a
  hwx1_1 : ∀ i : grid1.Coords, EltTy.bits .f32 = 32 ∨ (Rect.block (s := S25000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S25000x128.size a
  hwx1_2 : ∀ i : grid1.Coords, EltTy.bits .f32 = 32 ∨ (Rect.block (s := S25000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S25000x128.size a
  hwx1_4 : ∀ i : grid1.Coords, EltTy.bits .f32 = 32 ∨ (Rect.block (s := S25000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S100000x32.size a
  hwx2_0 : ∀ i : grid2.Coords, EltTy.bits .f32 = 32 ∨ (Rect.block (s := S100000x32) S5000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x32.size a ≤ S32x32.size a
  hwx2_1 : ∀ i : grid2.Coords, EltTy.bits .f32 = 32 ∨ (Rect.block (s := S32x32) S32x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x32.size a ≤ S100000x32.size a
  hwx2_2 : ∀ i : grid2.Coords, EltTy.bits .f32 = 32 ∨ (Rect.block (s := S100000x32) S5000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S25000x128.size a
  hwx3_0 : ∀ i : grid3.Coords, EltTy.bits .f32 = 32 ∨ (Rect.block (s := S25000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S25000x128.size a
  hwx3_1 : ∀ i : grid3.Coords, EltTy.bits .f32 = 32 ∨ (Rect.block (s := S25000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S25000x128.size a
  hwx3_2 : ∀ i : grid3.Coords, EltTy.bits .f32 = 32 ∨ (Rect.block (s := S25000x128) S5000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S25000x128.size a
  hwx3_4 : ∀ i : grid3.Coords, EltTy.bits .f32 = 32 ∨ (Rect.block (s := S25000x128) S5000x128.size (cc3_transform_4 i) (hinb3_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x3_S3x32_S5000x32_1_0_0_1_n_n : DotDims S5000x3 S3x32 S5000x32 where
  lhsContracting := [1]
  rhsContracting := [0]
  lhsNonContracting := [0]
  rhsNonContracting := [1]
  lhsBatch := []
  rhsBatch := []
  wf := dot_S5000x3_S3x32_S5000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf
def scatter_S512x32_S100000x1_S100000x32_1_0_0_1 : ScatterDims S512x32 S100000x1 S100000x32 where
  updateWindowDims := [1]
  insertedWindowDims := [0]
  scatterDimsToOperandDims := [0]
  indexVectorDim := 1
  wf := scatter_S512x32_S100000x1_S100000x32_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x32_S32x2_S512x2_1_0_0_1_n_n : DotDims S512x32 S32x2 S512x2 where
  lhsContracting := [1]
  rhsContracting := [0]
  lhsNonContracting := [0]
  rhsNonContracting := [1]
  lhsBatch := []
  rhsBatch := []
  wf := dot_S512x32_S32x2_S512x2_1_0_0_1_n_n_wf

abbrev win0_0 : Pipeline.Window sig grid0 :=
  Pipeline.Window.ofSpec (Memref.whole main_arg0) S5000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S3x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v49) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v50) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v51) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S32x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v52) S5000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v65) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v66) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v68) S5000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v72) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v73) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x3 : Shape := ⟨2, ![100000, 3]⟩
abbrev S2x1600000 : Shape := ⟨2, ![2, 1600000]⟩
abbrev S100000 : Shape := ⟨1, ![100000]⟩
abbrev S3x32 : Shape := ⟨2, ![3, 32]⟩
abbrev S32 : Shape := ⟨1, ![32]⟩
abbrev S32x32 : Shape := ⟨2, ![32, 32]⟩
abbrev S32x2 : Shape := ⟨2, ![32, 2]⟩
abbrev S2 : Shape := ⟨1, ![2]⟩
abbrev S1x1600000 : Shape := ⟨2, ![1, 1600000]⟩
abbrev S1600000 : Shape := ⟨1, ![1600000]⟩
abbrev S100000x32 : Shape := ⟨2, ![100000, 32]⟩
abbrev S_ : Shape := ⟨0, ![]⟩
abbrev S1600000x1 : Shape := ⟨2, ![1600000, 1]⟩
abbrev S1600000x32 : Shape := ⟨2, ![1600000, 32]⟩
abbrev S100000x1 : Shape := ⟨2, ![100000, 1]⟩
abbrev S1x32 : Shape := ⟨2, ![1, 32]⟩
abbrev S512x32 : Shape := ⟨2, ![512, 32]⟩
abbrev S512 : Shape := ⟨1, ![512]⟩
abbrev S512x1 : Shape := ⟨2, ![512, 1]⟩
abbrev S512x2 : Shape := ⟨2, ![512, 2]⟩
abbrev S1x2 : Shape := ⟨2, ![1, 2]⟩

abbrev nBuf : Space → Nat
  | .hbm => 147
  | .vmem => 0
  | .smem => 0
  | _ => 0

abbrev hbmTy0_0 (i : Nat) : BufTy := match i % 128 with
  | 0 => ⟨S100000x3, .f32⟩
  | 1 => ⟨S2x1600000, .i32⟩
  | 2 => ⟨S100000, .i32⟩
  | 3 => ⟨S3x32, .f32⟩
  | 4 => ⟨S32, .f32⟩
  | 5 => ⟨S32x32, .f32⟩
  | 6 => ⟨S32, .f32⟩
  | 7 => ⟨S32x2, .f32⟩
  | 8 => ⟨S2, .f32⟩
  | 9 => ⟨S1x1600000, .i32⟩
  | 10 => ⟨S1600000, .i32⟩
  | 11 => ⟨S1x1600000, .i32⟩
  | 12 => ⟨S1600000, .i32⟩
  | 13 => ⟨S100000x32, .f32⟩
  | 14 => ⟨S_, .f32⟩
  | 15 => ⟨S1600000, .f32⟩
  | 16 => ⟨S_, .f32⟩
  | 17 => ⟨S100000, .f32⟩
  | 18 => ⟨S1600000x1, .i32⟩
  | 19 => ⟨S100000, .f32⟩
  | 20 => ⟨S_, .f32⟩
  | 21 => ⟨S100000, .f32⟩
  | 22 => ⟨S100000, .f32⟩
  | 23 => ⟨S100000, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000, .f32⟩
  | 42 => ⟨S1600000, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000x32, .f32⟩
  | 52 => ⟨S1600000x1, .f32⟩
  | 53 => ⟨S1600000x32, .f32⟩
  | 54 => ⟨S1600000x32, .f32⟩
  | 55 => ⟨S_, .f32⟩
  | 56 => ⟨S100000x32, .f32⟩
  | 57 => ⟨S1600000x1, .i32⟩
  | 58 => ⟨S100000x32, .f32⟩
  | 59 => ⟨S100000, .f32⟩
  | 60 => ⟨S100000x1, .f32⟩
  | 61 => ⟨S100000x32, .f32⟩
  | 62 => ⟨S100000x32, .f32⟩
  | 63 => ⟨S100000x32, .f32⟩
  | 64 => ⟨S1x32, .f32⟩
  | 65 => ⟨S100000x32, .f32⟩
  | 66 => ⟨S100000x32, .f32⟩
  | 67 => ⟨S_, .f32⟩
  | 68 => ⟨S100000x32, .f32⟩
  | 69 => ⟨S100000x32, .f32⟩
  | 70 => ⟨S100000x32, .f32⟩
  | 71 => ⟨S_, .f32⟩
  | 72 => ⟨S1600000, .f32⟩
  | 73 => ⟨S_, .f32⟩
  | 74 => ⟨S100000, .f32⟩
  | 75 => ⟨S1600000x1, .i32⟩
  | 76 => ⟨S100000, .f32⟩
  | 77 => ⟨S_, .f32⟩
  | 78 => ⟨S100000, .f32⟩
  | 79 => ⟨S100000, .f32⟩
  | 80 => ⟨S100000, .f32⟩
  | 81 => ⟨S_, .i32⟩
  | 82 => ⟨S1600000, .i32⟩
  | 83 => ⟨S1600000, .i1⟩
  | 84 => ⟨S_, .i32⟩
  | 85 => ⟨S1600000, .i32⟩
  | 86 => ⟨S1600000, .i32⟩
  | 87 => ⟨S1600000, .i32⟩
  | 88 => ⟨S1600000x1, .i32⟩
  | 89 => ⟨S1600000, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1600000, .f32⟩
  | 99 => ⟨S1600000, .f32⟩
  | 100 => ⟨S_, .i32⟩
  | 101 => ⟨S1600000, .i32⟩
  | 102 => ⟨S1600000, .i1⟩
  | 103 => ⟨S_, .i32⟩
  | 104 => ⟨S1600000, .i32⟩
  | 105 => ⟨S1600000, .i32⟩
  | 106 => ⟨S1600000, .i32⟩
  | 107 => ⟨S1600000x1, .i32⟩
  | 108 => ⟨S1600000x32, .f32⟩
  | 109 => ⟨S1600000x1, .f32⟩
  | 110 => ⟨S1600000x32, .f32⟩
  | 111 => ⟨S1600000x32, .f32⟩
  | 112 => ⟨S_, .f32⟩
  | 113 => ⟨S100000x32, .f32⟩
  | 114 => ⟨S1600000x1, .i32⟩
  | 115 => ⟨S100000x32, .f32⟩
  | 116 => ⟨S100000, .f32⟩
  | 117 => ⟨S100000x1, .f32⟩
  | 118 => ⟨S100000x32, .f32⟩
  | 119 => ⟨S100000x32, .f32⟩
  | 120 => ⟨S100000x32, .f32⟩
  | 121 => ⟨S1x32, .f32⟩
  | 122 => ⟨S100000x32, .f32⟩
  | 123 => ⟨S100000x32, .f32⟩
  | 124 => ⟨S_, .f32⟩
  | 125 => ⟨S100000x32, .f32⟩
  | 126 => ⟨S100000x32, .f32⟩
  | 127 => ⟨S_, .f32⟩
  | _ => ⟨S100000x3, .f32⟩

abbrev hbmTy0_1 (i : Nat) : BufTy := match i % 128 with
  | 0 => ⟨S512x32, .f32⟩
  | 1 => ⟨S100000x1, .i32⟩
  | 2 => ⟨S512x32, .f32⟩
  | 3 => ⟨S_, .f32⟩
  | 4 => ⟨S100000, .f32⟩
  | 5 => ⟨S_, .f32⟩
  | 6 => ⟨S512, .f32⟩
  | 7 => ⟨S100000x1, .i32⟩
  | 8 => ⟨S512, .f32⟩
  | 9 => ⟨S_, .f32⟩
  | 10 => ⟨S512, .f32⟩
  | 11 => ⟨S512, .f32⟩
  | 12 => ⟨S512x1, .f32⟩
  | 13 => ⟨S512x32, .f32⟩
  | 14 => ⟨S512x32, .f32⟩
  | 15 => ⟨S512x2, .f32⟩
  | 16 => ⟨S1x2, .f32⟩
  | 17 => ⟨S512x2, .f32⟩
  | 18 => ⟨S512x2, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call0_cst : Ref sig .tc := ⟨.hbm, 67, rfl⟩
abbrev main_call0_v0 : Ref sig .tc := ⟨.hbm, 68, rfl⟩
abbrev main_v48 : Ref sig .tc := ⟨.hbm, 69, rfl⟩
abbrev main_v49 : Ref sig .tc := ⟨.hbm, 70, rfl⟩
abbrev main_cst_8 : Ref sig .tc := ⟨.hbm, 71, rfl⟩
abbrev main_v50 : Ref sig .tc := ⟨.hbm, 72, rfl⟩
abbrev main_cst_9 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_c_11 : Ref sig .tc := ⟨.hbm, 81, rfl⟩
abbrev main_v57 : Ref sig .tc := ⟨.hbm, 82, rfl⟩
abbrev main_v58 : Ref sig .tc := ⟨.hbm, 83, rfl⟩
abbrev main_c_12 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_c_13 : Ref sig .tc := ⟨.hbm, 90, rfl⟩
abbrev main_v64 : Ref sig .tc := ⟨.hbm, 91, rfl⟩
abbrev main_v65 : Ref sig .tc := ⟨.hbm, 92, rfl⟩
abbrev main_c_14 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_c_15 : Ref sig .tc := ⟨.hbm, 100, rfl⟩
abbrev main_v72 : Ref sig .tc := ⟨.hbm, 101, rfl⟩
abbrev main_v73 : Ref sig .tc := ⟨.hbm, 102, rfl⟩
abbrev main_c_16 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_17 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_call1_cst : Ref sig .tc := ⟨.hbm, 124, rfl⟩
abbrev main_call1_v0 : Ref sig .tc := ⟨.hbm, 125, rfl⟩
abbrev main_v93 : Ref sig .tc := ⟨.hbm, 126, rfl⟩
abbrev main_cst_18 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_cst_19 : Ref sig .tc := ⟨.hbm, 131, rfl⟩
abbrev main_v97 : Ref sig .tc := ⟨.hbm, 132, rfl⟩
abbrev main_cst_20 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_cst_21 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S512x32 : S_.BroadcastsInDim S512x32 (![] : Fin 0 → Fin S512x32.rank)
  bcast_S_S512 : S_.BroadcastsInDim S512 (![] : Fin 0 → Fin S512.rank)
  bcast_S512_S512x1_0 : S512.BroadcastsInDim S512x1 (![0] : Fin 1 → Fin S512x1.rank)
  bcast_S512x1_S512x32_0_1 : S512x1.BroadcastsInDim S512x32 (![0, 1] : Fin 2 → Fin S512x32.rank)
  bcast_S2_S1x2_1 : S2.BroadcastsInDim S1x2 (![1] : Fin 1 → Fin S1x2.rank)
  bcast_S1x2_S512x2_0_1 : S1x2.BroadcastsInDim S512x2 (![0, 1] : Fin 2 → Fin S512x2.rank)
  dot_S100000x3_S3x32_S100000x32_1_0_0_1_n_n_wf : DotDims.WF S100000x3 S3x32 S100000x32 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x32_S100000x32_1_0_0_1_n_n_wf : DotDims.WF S100000x32 S32x32 S100000x32 [1] [0] [0] [1] [] []
  scatter_S512x32_S100000x1_S100000x32_1_0_0_1_wf : ScatterDims.WF S512x32 S100000x1 S100000x32 [1] [0] [0] 1
  scatter_S512_S100000x1_S100000_n_0_0_1_wf : ScatterDims.WF S512 S100000x1 S100000 [] [0] [0] 1
  dot_S512x32_S32x2_S512x2_1_0_0_1_n_n_wf : DotDims.WF S512x32 S32x2 S512x2 [1] [0] [0] [1] [] []

variable [Facts₀]

def dot_S100000x3_S3x32_S100000x32_1_0_0_1_n_n : DotDims S100000x3 S3x32 S100000x32 where
  lhsContracting := [1]
  rhsContracting := [0]
  lhsNonContracting := [0]
  rhsNonContracting := [1]
  lhsBatch := []
  rhsBatch := []
  wf := dot_S100000x3_S3x32_S100000x32_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def scatter_S512x32_S100000x1_S100000x32_1_0_0_1 : ScatterDims S512x32 S100000x1 S100000x32 where
  updateWindowDims := [1]
  insertedWindowDims := [0]
  scatterDimsToOperandDims := [0]
  indexVectorDim := 1
  wf := scatter_S512x32_S100000x1_S100000x32_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x32_S32x2_S512x2_1_0_0_1_n_n : DotDims S512x32 S32x2 S512x2 where
  lhsContracting := [1]
  rhsContracting := [0]
  lhsNonContracting := [0]
  rhsNonContracting := [1]
  lhsBatch := []
  rhsBatch := []
  wf := dot_S512x32_S32x2_S512x2_1_0_0_1_n_n_wf

class Facts : Prop extends Facts₀ where

variable [Facts]
-- ==== Proof.KRun.lean ====
/-
  The idealized kernel program's run, with its RESULT named.

  The program is a line of host operations, cut four times by a pipelined kernel call.  The buffer contents at each
  cut are a fold from the launch memory: a stretch of host operations applies them in order, a kernel call replaces
  its output array by what the grid's write-backs leave and keeps every other buffer.  The last fold, `W9`, is the
  memory every weakly fair execution ends in, on every buffer the thread holds whole.  The frame statement reads
  only the nine argument arrays off it; here the result buffer is read off it as well, so that the value of the
  program is `W9` at the result — a closed term to be computed elsewhere.
-/
import proofs.«122990_j31868657336593_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    fold's contents and the nine argument arrays end as launched. -/
theorem run_result : θ_run defs (onTc (τ := τ) (main (F := F))) ⟨m, fun _ => 0, ρ⟩ (fun r => ∀ c : Dev nD,
      r.2.mem ((c.tc : Thread nD τ).loc main_v90) = W9 m ρ c (Proc.devRef .tc main_v90)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v90 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c)⟩)

end Cert.KernelIdeal.Whole

end
-- ==== Proof.Spec.lean ====
/-
  The specification: what both programs compute, as ONE function of the nine argument arrays.

  A graph of 100000 nodes and 1600000 directed edges (source row and destination row of the edge array) carries
  node features; two graph-convolution layers and a mean over each of 512 node groups follow.  With
      deg(n)  = 1 + #{edges into n},      dinv = deg^(-1/2),      norm(e) = dinv(src e) * dinv(dst e),
  one layer sends a feature table `xw` (already multiplied by the layer's weights) to
      relu( ( Σ_{e into n} xw(src e) * norm(e)  +  xw(n) * dinv(n)^2 )  +  bias ),
  the sum over incoming edges being a scatter-add of gathered rows.  The gathers and scatter-adds are kept as the host
  operations they are: both programs apply the same ones to the same operands, so they are never opened.
  The pieces below are spelt as the reference program spells them, so that its result term IS `G` of its arguments.

  Also here: the two index-by-index functions the kernel's pipelined calls compute — a row-by-column product as a sum
  over the shared axis, and the lane-dense combine `max((a + d*x) + b, 0)` over 128-wide rows.
-/
import proofs.«122990_j31868657336593_2_alg».proof.Proof.Gen.ReferenceIdeal
import Idealize.ShloMosaic.PureOps.Ideal
import Idealize.ShloMosaic.Lib.ValueIdx

noncomputable section

open scoped BigOperators

namespace Cert.Spec

open Cert.ReferenceIdeal Cert.ReferenceIdeal.Gen Idealize.ShloMosaic Idealize.ShloMosaic.ValueIdx

variable {F : FTy → Type} [FloatOps F]

/-! ## The edge list and the normalisation -/

/-- The sources: row 0 of the edge array, as a flat list. -/
def srcOf (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000

/-- The destinations: row 1 of the edge array, as a flat list. -/
def dstOf (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000

/-- A list of node numbers as a column of gather positions, a negative number counted from the end. -/
def wrapIdx (s : (⟨S1600000, .i32⟩ : BufTy).Contents (Elt F)) : (⟨S1600000x1, .i32⟩ : BufTy).Contents (Elt F) :=
  broadcastInDim S1600000x1 ![0] bcast_S1600000_S1600000x1_0 (select (cmpi .slt s (broadcastInDim S1600000 ![] bcast_S_S1600000 (constantI S_ 32 0#32))) (addi s (broadcastInDim S1600000 ![] bcast_S_S1600000 (constantI S_ 32 100000#32))) s)

/-- `deg^(-1/2)`: one plus the number of edges into each node, under the reciprocal square root. -/
def dinvOf (e : (⟨S2x1600000, .i32⟩ : BufTy).Contents (Elt F)) : (⟨S100000, .f32⟩ : BufTy).Contents (Elt F) :=
  Host.rsqrt (addf (Host.scatterAdd scatter_S100000_S1600000x1_S1600000_n_0_0_1 (broadcastInDim S100000 ![] bcast_S_S100000 (constant S_ .f32 0x00000000#32)) (broadcastInDim S1600000x1 ![0] bcast_S1600000_S1600000x1_0 (dstOf e)) (broadcastInDim S1600000 ![] bcast_S_S1600000 (constant S_ .f32 0x3F800000#32))) (broadcastInDim S100000 ![] bcast_S_S100000 (constant S_ .f32 0x3F800000#32)))

/-- The edge weights `dinv(src) * dinv(dst)`, as a list. -/
def normOf (e : (⟨S2x1600000, .i32⟩ : BufTy).Contents (Elt F)) : (⟨S1600000, .f32⟩ : BufTy).Contents (Elt F) :=
  mulf (Host.gather gather_S100000_S1600000x1_S1600000_n_0_n_n_0_1_1 (dinvOf e) (wrapIdx (srcOf e))) (Host.gather gather_S100000_S1600000x1_S1600000_n_0_n_n_0_1_1 (dinvOf e) (wrapIdx (dstOf e)))

/-- The edge weights as a column. -/
def normColOf (e : (⟨S2x1600000, .i32⟩ : BufTy).Contents (Elt F)) : (⟨S1600000x1, .f32⟩ : BufTy).Contents (Elt F) :=
  broadcastInDim S1600000x1 ![0] bcast_S1600000_S1600000x1_0 (normOf e)

/-- The self-loop weights `dinv^2`, as a column. -/
def selfColOf (e : (⟨S2x1600000, .i32⟩ : BufTy).Contents (Elt F)) : (⟨S100000x1, .f32⟩ : BufTy).Contents (Elt F) :=
  broadcastInDim S100000x1 ![0] bcast_S100000_S100000x1_0 (mulf (dinvOf e) (dinvOf e))

/-! ## One layer, over a feature table, an edge list and the two weight columns -/

/-- The neighbour sum: rows of `xw` gathered at the sources, weighted, scatter-added at the destinations. -/
def aggOf (xw : (⟨S100000x32, .f32⟩ : BufTy).Contents (Elt F)) (sI dI : (⟨S1600000, .i32⟩ : BufTy).Contents (Elt F))
    (ncol : (⟨S1600000x1, .f32⟩ : BufTy).Contents (Elt F)) : (⟨S100000x32, .f32⟩ : BufTy).Contents (Elt F) :=
  Host.scatterAdd scatter_S100000x32_S1600000x1_S1600000x32_1_0_0_1 (broadcastInDim S100000x32 ![] bcast_S_S100000x32 (constant S_ .f32 0x00000000#32)) (broadcastInDim S1600000x1 ![0] bcast_S1600000_S1600000x1_0 dI) (mulf (Host.gather gather_S100000x32_S1600000x1_S1600000x32_1_0_n_n_0_1_132 xw (wrapIdx sI)) (broadcastInDim S1600000x32 ![0, 1] bcast_S1600000x1_S1600000x32_0_1 ncol))

/-- Neighbour sum plus self loop, plus bias, under relu — from a neighbour sum `a` already formed. -/
def finishOf (a xw : (⟨S100000x32, .f32⟩ : BufTy).Contents (Elt F)) (scol : (⟨S100000x1, .f32⟩ : BufTy).Contents (Elt F))
    (b : (⟨S32, .f32⟩ : BufTy).Contents (Elt F)) : (⟨S100000x32, .f32⟩ : BufTy).Contents (Elt F) :=
  maximumf (addf (addf a (mulf xw (broadcastInDim S100000x32 ![0, 1] bcast_S100000x1_S100000x32_0_1 scol))) (broadcastInDim S100000x32 ![0, 1] bcast_S1x32_S100000x32_0_1 (broadcastInDim S1x32 ![1] bcast_S32_S1x32_1 b))) (broadcastInDim S100000x32 ![] bcast_S_S100000x32 (constant S_ .f32 0x00000000#32))

/-- One layer. -/
def layerOf (xw : (⟨S100000x32, .f32⟩ : BufTy).Contents (Elt F)) (sI dI : (⟨S1600000, .i32⟩ : BufTy).Contents (Elt F))
    (scol : (⟨S100000x1, .f32⟩ : BufTy).Contents (Elt F)) (ncol : (⟨S1600000x1, .f32⟩ : BufTy).Contents (Elt F))
    (b : (⟨S32, .f32⟩ : BufTy).Contents (Elt F)) : (⟨S100000x32, .f32⟩ : BufTy).Contents (Elt F) :=
  finishOf (aggOf xw sI dI ncol) xw scol b

/-! ## The mean over each group and the last affine map -/

/-- Group sums over group sizes (at least one), times the last weights, plus the last bias. -/
def poolOf (h : (⟨S100000x32, .f32⟩ : BufTy).Contents (Elt F)) (grp : (⟨S100000, .i32⟩ : BufTy).Contents (Elt F))
    (wl : (⟨S32x2, .f32⟩ : BufTy).Contents (Elt F)) (bl : (⟨S2, .f32⟩ : BufTy).Contents (Elt F)) : (⟨S512x2, .f32⟩ : BufTy).Contents (Elt F) :=
  addf (Host.dotGeneral dot_S512x32_S32x2_S512x2_1_0_0_1_n_n none (Host.divf (Host.scatterAdd scatter_S512x32_S100000x1_S100000x32_1_0_0_1 (broadcastInDim S512x32 ![] bcast_S_S512x32 (constant S_ .f32 0x00000000#32)) (broadcastInDim S100000x1 ![0] bcast_S100000_S100000x1_0 grp) h) (broadcastInDim S512x32 ![0, 1] bcast_S512x1_S512x32_0_1 (broadcastInDim S512x1 ![0] bcast_S512_S512x1_0 (maximumf (Host.scatterAdd scatter_S512_S100000x1_S100000_n_0_0_1 (broadcastInDim S512 ![] bcast_S_S512 (constant S_ .f32 0x00000000#32)) (broadcastInDim S100000x1 ![0] bcast_S100000_S100000x1_0 grp) (broadcastInDim S100000 ![] bcast_S_S100000 (constant S_ .f32 0x3F800000#32))) (broadcastInDim S512 ![] bcast_S_S512 (constant S_ .f32 0x3F800000#32)))))) wl) (broadcastInDim S512x2 ![0, 1] bcast_S1x2_S512x2_0_1 (broadcastInDim S1x2 ![1] bcast_S2_S1x2_1 bl))

/-! ## The whole function -/

/-- The result of both programs, of the nine arguments. -/
def G (x : (⟨S100000x3, .f32⟩ : BufTy).Contents (Elt F)) (e : (⟨S2x1600000, .i32⟩ : BufTy).Contents (Elt F))
    (grp : (⟨S100000, .i32⟩ : BufTy).Contents (Elt F)) (w1 : (⟨S3x32, .f32⟩ : BufTy).Contents (Elt F))
    (b1 : (⟨S32, .f32⟩ : BufTy).Contents (Elt F)) (w2 : (⟨S32x32, .f32⟩ : BufTy).Contents (Elt F))
    (b2 : (⟨S32, .f32⟩ : BufTy).Contents (Elt F)) (wl : (⟨S32x2, .f32⟩ : BufTy).Contents (Elt F))
    (bl : (⟨S2, .f32⟩ : BufTy).Contents (Elt F)) : (⟨S512x2, .f32⟩ : BufTy).Contents (Elt F) :=
  poolOf (layerOf (Host.dotGeneral dot_S100000x32_S32x32_S100000x32_1_0_0_1_n_n none
      (layerOf (Host.dotGeneral dot_S100000x3_S3x32_S100000x32_1_0_0_1_n_n none x w1) (srcOf e) (dstOf e) (selfColOf e) (normColOf e) b1) w2)
      (srcOf e) (dstOf e) (selfColOf e) (normColOf e) b2) grp wl bl

/-! ## What the kernel's calls compute, index by index, on the extended reals -/

/-- Rows times columns: entry `(r, q)` is the sum over the shared axis `k` of `x(r, k) * w(k, q)`. -/
def rowsByCols {A K B : Nat} (x : (⟨2, ![A, K]⟩ : Shape).Idx → EReal) (w : (⟨2, ![K, B]⟩ : Shape).Idx → EReal) :
    (⟨2, ![A, B]⟩ : Shape).Idx → EReal :=
  fun i => ∑ k : Fin K, x (ix2 (i 0) k) * w (ix2 k (i 1))

/-- The lane-dense combine: `max((a + d * x) + b, 0)` entry by entry over `R` rows of `L` lanes, the one-row bias
    read at the lane. The zero is kept as the single-precision word both programs write. -/
def combineRows {R L : Nat} (a x d : (⟨2, ![R, L]⟩ : Shape).Idx → EReal) (b : (⟨2, ![1, L]⟩ : Shape).Idx → EReal) :
    (⟨2, ![R, L]⟩ : Shape).Idx → EReal :=
  fun j => max ((a j + d j * x j) + b (ix2 (0 : Fin 1) (j 1))) (Ideal.ofBits .f32 0x00000000#32)

end Cert.Spec

end
-- ==== Proof.Stretch.lean ====
/-
  The five stretches of host operations of the idealized kernel program, each read from ARBITRARY contents `W` of the
  buffers when the stretch starts.

  A stretch applies its operations in order; what a buffer holds afterwards is the composition of the operations that
  lead to it, applied to what `W` holds at the buffers the stretch only reads, and a buffer no operation of the stretch
  writes holds what it held.  The results are named by the specification's pieces — the edge lists, the weight columns,
  the neighbour sum, the group mean — so that the gathers and scatter-adds inside them stay closed; the two programs'
  dimension records of one operation are the same record, and the comparison is structural.
-/
import proofs.«122990_j31868657336593_2_alg».proof.Proof.Gen.KernelIdeal.Launch
import proofs.«122990_j31868657336593_2_alg».proof.Proof.Spec
import Idealize.ShloMosaic.Lib.StableHlo.Run

set_option maxRecDepth 16384
set_option maxHeartbeats 4000000

noncomputable section

namespace Cert.KernelIdeal.Host

open Cert.KernelIdeal Cert.KernelIdeal.Gen Cert.Spec
open Idealize.ShloMosaic Idealize.ShloMosaic.TcCoe Idealize.ShloMosaic.StableHlo Idealize.SL.Sem

variable (W : Valuation τ sig (Elt Ideal))

/-! ## The first stretch: the edge lists and the normalisation -/

/-- The sources. -/
theorem s0_src : StableHlo.after (hostOps0 (F := Ideal)) W (Proc.devRef .tc main_v1)
    = srcOf (W (Proc.devRef .tc main_arg1)) := by
  after_results_simp
  rfl

/-- The destinations. -/
theorem s0_dst : StableHlo.after (hostOps0 (F := Ideal)) W (Proc.devRef .tc main_v3)
    = dstOf (W (Proc.devRef .tc main_arg1)) := by
  after_results_simp
  rfl

/-- The self-loop weights, as a column. -/
theorem s0_self : StableHlo.after (hostOps0 (F := Ideal)) W (Proc.devRef .tc main_v12)
    = selfColOf (W (Proc.devRef .tc main_arg1)) := by
  after_results_simp
  rfl

/-- The edge weights, as a column. -/
theorem s0_norm : StableHlo.after (hostOps0 (F := Ideal)) W (Proc.devRef .tc main_v28)
    = normColOf (W (Proc.devRef .tc main_arg1)) := by
  after_results_simp
  rfl

theorem s0_keep_arg0 : StableHlo.after (hostOps0 (F := Ideal)) W (Proc.devRef .tc main_arg0) = W (Proc.devRef .tc main_arg0) := by
  after_results_simp
theorem s0_keep_arg2 : StableHlo.after (hostOps0 (F := Ideal)) W (Proc.devRef .tc main_arg2) = W (Proc.devRef .tc main_arg2) := by
  after_results_simp
theorem s0_keep_arg3 : StableHlo.after (hostOps0 (F := Ideal)) W (Proc.devRef .tc main_arg3) = W (Proc.devRef .tc main_arg3) := by
  after_results_simp
theorem s0_keep_arg4 : StableHlo.after (hostOps0 (F := Ideal)) W (Proc.devRef .tc main_arg4) = W (Proc.devRef .tc main_arg4) := by
  after_results_simp
theorem s0_keep_arg5 : StableHlo.after (hostOps0 (F := Ideal)) W (Proc.devRef .tc main_arg5) = W (Proc.devRef .tc main_arg5) := by
  after_results_simp
theorem s0_keep_arg6 : StableHlo.after (hostOps0 (F := Ideal)) W (Proc.devRef .tc main_arg6) = W (Proc.devRef .tc main_arg6) := by
  after_results_simp
theorem s0_keep_arg7 : StableHlo.after (hostOps0 (F := Ideal)) W (Proc.devRef .tc main_arg7) = W (Proc.devRef .tc main_arg7) := by
  after_results_simp
theorem s0_keep_arg8 : StableHlo.after (hostOps0 (F := Ideal)) W (Proc.devRef .tc main_arg8) = W (Proc.devRef .tc main_arg8) := by
  after_results_simp

/-! ## The stretch before the first layer's combine -/

/-- The neighbour sum of the product table, re-laid into 128-lane rows. -/
theorem s1_agg : StableHlo.after (hostOps1 (F := Ideal)) W (Proc.devRef .tc main_v42)
    = shapeCast S25000x128 (aggOf (W (Proc.devRef .tc main_v29)) (W (Proc.devRef .tc main_v1)) (W (Proc.devRef .tc main_v3)) (W (Proc.devRef .tc main_v28))) shapeCasts_S100000x32_S25000x128 := by
  after_results_simp
  rfl

/-- The product table, re-laid into 128-lane rows. -/
theorem s1_xw : StableHlo.after (hostOps1 (F := Ideal)) W (Proc.devRef .tc main_v43)
    = shapeCast S25000x128 (W (Proc.devRef .tc main_v29)) shapeCasts_S100000x32_S25000x128 := by
  after_results_simp
  rfl

/-- The self-loop weights spread over the features, re-laid into 128-lane rows. -/
theorem s1_self : StableHlo.after (hostOps1 (F := Ideal)) W (Proc.devRef .tc main_v45)
    = shapeCast S25000x128 (broadcastInDim S100000x32 ![0, 1] bcast_S100000x1_S100000x32_0_1 (W (Proc.devRef .tc main_v12))) shapeCasts_S100000x32_S25000x128 := by
  after_results_simp
  rfl

/-- The bias tiled four times into one 128-lane row. -/
theorem s1_bias : StableHlo.after (hostOps1 (F := Ideal)) W (Proc.devRef .tc main_v49)
    = shapeCast S1x128 (shapeCast S128 (broadcastInDim S4x32 ![0, 1] bcast_S1x32_S4x32_0_1 (shapeCast S1x32 (W (Proc.devRef .tc main_arg4)) shapeCasts_S32_S1x32)) shapeCasts_S4x32_S128) shapeCasts_S128_S1x128 := by
  after_results_simp
  rfl

theorem s1_keep_v1 : StableHlo.after (hostOps1 (F := Ideal)) W (Proc.devRef .tc main_v1) = W (Proc.devRef .tc main_v1) := by
  after_results_simp
theorem s1_keep_v3 : StableHlo.after (hostOps1 (F := Ideal)) W (Proc.devRef .tc main_v3) = W (Proc.devRef .tc main_v3) := by
  after_results_simp
theorem s1_keep_v12 : StableHlo.after (hostOps1 (F := Ideal)) W (Proc.devRef .tc main_v12) = W (Proc.devRef .tc main_v12) := by
  after_results_simp
theorem s1_keep_v28 : StableHlo.after (hostOps1 (F := Ideal)) W (Proc.devRef .tc main_v28) = W (Proc.devRef .tc main_v28) := by
  after_results_simp
theorem s1_keep_arg2 : StableHlo.after (hostOps1 (F := Ideal)) W (Proc.devRef .tc main_arg2) = W (Proc.devRef .tc main_arg2) := by
  after_results_simp
theorem s1_keep_arg5 : StableHlo.after (hostOps1 (F := Ideal)) W (Proc.devRef .tc main_arg5) = W (Proc.devRef .tc main_arg5) := by
  after_results_simp
theorem s1_keep_arg6 : StableHlo.after (hostOps1 (F := Ideal)) W (Proc.devRef .tc main_arg6) = W (Proc.devRef .tc main_arg6) := by
  after_results_simp
theorem s1_keep_arg7 : StableHlo.after (hostOps1 (F := Ideal)) W (Proc.devRef .tc main_arg7) = W (Proc.devRef .tc main_arg7) := by
  after_results_simp
theorem s1_keep_arg8 : StableHlo.after (hostOps1 (F := Ideal)) W (Proc.devRef .tc main_arg8) = W (Proc.devRef .tc main_arg8) := by
  after_results_simp

/-! ## The one reshape between the first combine and the second product -/

/-- The combined rows, re-laid as a node table. -/
theorem s2_h : StableHlo.after (hostOps2 (F := Ideal)) W (Proc.devRef .tc main_v51)
    = shapeCast S100000x32 (W (Proc.devRef .tc main_v50)) shapeCasts_S25000x128_S100000x32 := by
  after_results_simp
  rfl

theorem s2_keep_v1 : StableHlo.after (hostOps2 (F := Ideal)) W (Proc.devRef .tc main_v1) = W (Proc.devRef .tc main_v1) := by
  after_results_simp
theorem s2_keep_v3 : StableHlo.after (hostOps2 (F := Ideal)) W (Proc.devRef .tc main_v3) = W (Proc.devRef .tc main_v3) := by
  after_results_simp
theorem s2_keep_v12 : StableHlo.after (hostOps2 (F := Ideal)) W (Proc.devRef .tc main_v12) = W (Proc.devRef .tc main_v12) := by
  after_results_simp
theorem s2_keep_v28 : StableHlo.after (hostOps2 (F := Ideal)) W (Proc.devRef .tc main_v28) = W (Proc.devRef .tc main_v28) := by
  after_results_simp
theorem s2_keep_arg2 : StableHlo.after (hostOps2 (F := Ideal)) W (Proc.devRef .tc main_arg2) = W (Proc.devRef .tc main_arg2) := by
  after_results_simp
theorem s2_keep_arg5 : StableHlo.after (hostOps2 (F := Ideal)) W (Proc.devRef .tc main_arg5) = W (Proc.devRef .tc main_arg5) := by
  after_results_simp
theorem s2_keep_arg6 : StableHlo.after (hostOps2 (F := Ideal)) W (Proc.devRef .tc main_arg6) = W (Proc.devRef .tc main_arg6) := by
  after_results_simp
theorem s2_keep_arg7 : StableHlo.after (hostOps2 (F := Ideal)) W (Proc.devRef .tc main_arg7) = W (Proc.devRef .tc main_arg7) := by
  after_results_simp
theorem s2_keep_arg8 : StableHlo.after (hostOps2 (F := Ideal)) W (Proc.devRef .tc main_arg8) = W (Proc.devRef .tc main_arg8) := by
  after_results_simp

/-! ## The stretch before the second layer's combine -/

/-- The neighbour sum of the product table, re-laid into 128-lane rows. -/
theorem s3_agg : StableHlo.after (hostOps3 (F := Ideal)) W (Proc.devRef .tc main_v65)
    = shapeCast S25000x128 (aggOf (W (Proc.devRef .tc main_v52)) (W (Proc.devRef .tc main_v1)) (W (Proc.devRef .tc main_v3)) (W (Proc.devRef .tc main_v28))) shapeCasts_S100000x32_S25000x128 := by
  after_results_simp
  rfl

/-- The product table, re-laid into 128-lane rows. -/
theorem s3_xw : StableHlo.after (hostOps3 (F := Ideal)) W (Proc.devRef .tc main_v66)
    = shapeCast S25000x128 (W (Proc.devRef .tc main_v52)) shapeCasts_S100000x32_S25000x128 := by
  after_results_simp
  rfl

/-- The self-loop weights spread over the features, re-laid into 128-lane rows. -/
theorem s3_self : StableHlo.after (hostOps3 (F := Ideal)) W (Proc.devRef .tc main_v68)
    = shapeCast S25000x128 (broadcastInDim S100000x32 ![0, 1] bcast_S100000x1_S100000x32_0_1 (W (Proc.devRef .tc main_v12))) shapeCasts_S100000x32_S25000x128 := by
  after_results_simp
  rfl

/-- The bias tiled four times into one 128-lane row. -/
theorem s3_bias : StableHlo.after (hostOps3 (F := Ideal)) W (Proc.devRef .tc main_v72)
    = shapeCast S1x128 (shapeCast S128 (broadcastInDim S4x32 ![0, 1] bcast_S1x32_S4x32_0_1 (shapeCast S1x32 (W (Proc.devRef .tc main_arg6)) shapeCasts_S32_S1x32)) shapeCasts_S4x32_S128) shapeCasts_S128_S1x128 := by
  after_results_simp
  rfl

theorem s3_keep_arg2 : StableHlo.after (hostOps3 (F := Ideal)) W (Proc.devRef .tc main_arg2) = W (Proc.devRef .tc main_arg2) := by
  after_results_simp
theorem s3_keep_arg7 : StableHlo.after (hostOps3 (F := Ideal)) W (Proc.devRef .tc main_arg7) = W (Proc.devRef .tc main_arg7) := by
  after_results_simp
theorem s3_keep_arg8 : StableHlo.after (hostOps3 (F := Ideal)) W (Proc.devRef .tc main_arg8) = W (Proc.devRef .tc main_arg8) := by
  after_results_simp

/-! ## The last stretch: the group mean and the affine map -/

/-- The result: the combined rows re-laid as a node table, pooled. -/
theorem s4_out : StableHlo.after (hostOps4 (F := Ideal)) W (Proc.devRef .tc main_v90)
    = poolOf (shapeCast S100000x32 (W (Proc.devRef .tc main_v73)) shapeCasts_S25000x128_S100000x32) (W (Proc.devRef .tc main_arg2)) (W (Proc.devRef .tc main_arg7)) (W (Proc.devRef .tc main_arg8)) := by
  after_results_simp
  rfl

end Cert.KernelIdeal.Host

end
-- ==== Proof.LibPlainDot.lean ====
/-
  A general fact about contractions of two matrices at the ideal instance.

  A dot of an [A,K] operand by a [K,B] operand whose dimension numbers contract the left operand's axis 1 with the
  right operand's axis 0, keep the left operand's axis 0 as the result's rows and the right operand's axis 1 as its
  columns, and have no batch axis, reads its operands at (row, k) and (k, column) as k runs over the contracted axis.
  Its sum over the contraction's index set is therefore the plain sum over `k : Fin K` of
  `l(row, k) * r(k, column)`.  The four coordinate facts are hypotheses: for a concrete dimension record each is a
  one-line evaluation.  No finiteness is used: only the re-indexing of one finite sum on the extended reals.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- The sum over a one-axis contraction's index set, re-indexed by the contracted coordinate. -/
theorem contr_sum {A K B : Nat} (d : DotDims ⟨2, ![A, K]⟩ ⟨2, ![K, B]⟩ ⟨2, ![A, B]⟩)
    (hr : d.contr.rank = 1) (hs : d.contr.size ⟨0, by omega⟩ = K)
    (hl0 : ∀ (j : (⟨2, ![A, B]⟩ : Shape).Idx) (q : d.contr.Idx), (d.lhsIdx j q 0).val = (j 0).val)
    (hl1 : ∀ (j : (⟨2, ![A, B]⟩ : Shape).Idx) (q : d.contr.Idx), (d.lhsIdx j q 1).val = (q ⟨0, by omega⟩).val)
    (hr0 : ∀ (j : (⟨2, ![A, B]⟩ : Shape).Idx) (q : d.contr.Idx), (d.rhsIdx j q 0).val = (q ⟨0, by omega⟩).val)
    (hr1 : ∀ (j : (⟨2, ![A, B]⟩ : Shape).Idx) (q : d.contr.Idx), (d.rhsIdx j q 1).val = (j 1).val)
    (l : (⟨2, ![A, K]⟩ : Shape).Idx → EReal) (r : (⟨2, ![K, B]⟩ : Shape).Idx → EReal) (j : (⟨2, ![A, B]⟩ : Shape).Idx) :
    ∑ k : d.contr.Idx, l (d.lhsIdx j k) * r (d.rhsIdx j k) = ∑ k : Fin K, l (ix2 (j 0) k) * r (ix2 k (j 1)) := by
  rw [← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun a => Fin.ext (by
    match a with
    | ⟨0, _⟩ => exact hl0 _ _
    | ⟨1, _⟩ => exact (hl1 _ _).trans hk)
  have er : d.rhsIdx j ((contrEquiv1 d K hr hs).symm k) = ix2 k (j 1) := funext fun a => Fin.ext (by
    match a with
    | ⟨0, _⟩ => exact (hr0 _ _).trans hk
    | ⟨1, _⟩ => exact hr1 _ _)
  rw [el, er]
  rfl

end Cert.LibPlainDot

end
-- ==== Proof.MatProd.lean ====
/-
  The four matrix products of the two programs are one function, `rowsByCols`.

  The kernel multiplies a block of 5000 rows by the whole weight matrix on the matrix unit, into a zero accumulator,
  after narrowing both operands to half precision; the reference multiplies all 100000 rows at once on the host.  On
  the extended reals a change of float format is the identity and both products are the plain sum over the shared
  axis of `x(row, k) * w(k, column)`: each is the general contraction lemma at its own dimension record.  Commutativity
  and associativity of the sum are all that is used; no entry need be finite.
-/
import proofs.«122990_j31868657336593_2_alg».proof.Proof.Spec
import proofs.«122990_j31868657336593_2_alg».proof.Proof.LibPlainDot
import proofs.«122990_j31868657336593_2_alg».proof.Proof.Gen.KernelIdeal.Skeleton
import Idealize.ShloMosaic.Lib.Pipeline.Value

set_option maxRecDepth 16384

noncomputable section

open scoped BigOperators

namespace Cert.MatProd

open Idealize.ShloMosaic Idealize.ShloMosaic.ValueIdx Cert.Spec

/-! ## The contraction sums -/

/-- The first kernel product's contraction: 5000 rows of 3 by 3 rows of 32. -/
theorem contrK0 (l : Cert.KernelIdeal.S5000x3.Idx → EReal) (r : Cert.KernelIdeal.S3x32.Idx → EReal) (j) :
    ∑ k : Cert.KernelIdeal.dot_S5000x3_S3x32_S5000x32_1_0_0_1_n_n.contr.Idx, l (Cert.KernelIdeal.dot_S5000x3_S3x32_S5000x32_1_0_0_1_n_n.lhsIdx j k) * r (Cert.KernelIdeal.dot_S5000x3_S3x32_S5000x32_1_0_0_1_n_n.rhsIdx j k) = rowsByCols l r j :=
  Cert.LibPlainDot.contr_sum Cert.KernelIdeal.dot_S5000x3_S3x32_S5000x32_1_0_0_1_n_n rfl rfl
    (fun j q => by
      unfold DotDims.lhsIdx
      rw [dif_neg (show ¬(0 : Fin Cert.KernelIdeal.S5000x3.rank) ∈ Cert.KernelIdeal.dot_S5000x3_S3x32_S5000x32_1_0_0_1_n_n.lhsBatch by decide), dif_pos (show (0 : Fin Cert.KernelIdeal.S5000x3.rank) ∈ Cert.KernelIdeal.dot_S5000x3_S3x32_S5000x32_1_0_0_1_n_n.lhsNonContracting by decide)]
      rfl)
    (fun j q => Cert.KernelIdeal.dot_S5000x3_S3x32_S5000x32_1_0_0_1_n_n.lhsIdx_val_of_single rfl j q)
    (fun j q => Cert.KernelIdeal.dot_S5000x3_S3x32_S5000x32_1_0_0_1_n_n.rhsIdx_val_of_single rfl j q)
    (fun j q => by
      unfold DotDims.rhsIdx
      rw [dif_neg (show ¬(1 : Fin Cert.KernelIdeal.S3x32.rank) ∈ Cert.KernelIdeal.dot_S5000x3_S3x32_S5000x32_1_0_0_1_n_n.rhsBatch by decide), dif_pos (show (1 : Fin Cert.KernelIdeal.S3x32.rank) ∈ Cert.KernelIdeal.dot_S5000x3_S3x32_S5000x32_1_0_0_1_n_n.rhsNonContracting by decide)]
      rfl)
    l r j

/-- The second kernel product's contraction: 5000 rows of 32 by 32 rows of 32. -/
theorem contrK2 (l : Cert.KernelIdeal.S5000x32.Idx → EReal) (r : Cert.KernelIdeal.S32x32.Idx → EReal) (j) :
    ∑ k : Cert.KernelIdeal.dot_S5000x32_S32x32_S5000x32_1_0_0_1_n_n.contr.Idx, l (Cert.KernelIdeal.dot_S5000x32_S32x32_S5000x32_1_0_0_1_n_n.lhsIdx j k) * r (Cert.KernelIdeal.dot_S5000x32_S32x32_S5000x32_1_0_0_1_n_n.rhsIdx j k) = rowsByCols l r j :=
  Cert.LibPlainDot.contr_sum Cert.KernelIdeal.dot_S5000x32_S32x32_S5000x32_1_0_0_1_n_n rfl rfl
    (fun j q => by
      unfold DotDims.lhsIdx
      rw [dif_neg (show ¬(0 : Fin Cert.KernelIdeal.S5000x32.rank) ∈ Cert.KernelIdeal.dot_S5000x32_S32x32_S5000x32_1_0_0_1_n_n.lhsBatch by decide), dif_pos (show (0 : Fin Cert.KernelIdeal.S5000x32.rank) ∈ Cert.KernelIdeal.dot_S5000x32_S32x32_S5000x32_1_0_0_1_n_n.lhsNonContracting by decide)]
      rfl)
    (fun j q => Cert.KernelIdeal.dot_S5000x32_S32x32_S5000x32_1_0_0_1_n_n.lhsIdx_val_of_single rfl j q)
    (fun j q => Cert.KernelIdeal.dot_S5000x32_S32x32_S5000x32_1_0_0_1_n_n.rhsIdx_val_of_single rfl j q)
    (fun j q => by
      unfold DotDims.rhsIdx
      rw [dif_neg (show ¬(1 : Fin Cert.KernelIdeal.S32x32.rank) ∈ Cert.KernelIdeal.dot_S5000x32_S32x32_S5000x32_1_0_0_1_n_n.rhsBatch by decide), dif_pos (show (1 : Fin Cert.KernelIdeal.S32x32.rank) ∈ Cert.KernelIdeal.dot_S5000x32_S32x32_S5000x32_1_0_0_1_n_n.rhsNonContracting by decide)]
      rfl)
    l r j

/-- The reference's first product: 100000 rows of 3 by 3 rows of 32. -/
theorem contrR1 (l : Cert.ReferenceIdeal.S100000x3.Idx → EReal) (r : Cert.ReferenceIdeal.S3x32.Idx → EReal) (j) :
    ∑ k : Cert.ReferenceIdeal.dot_S100000x3_S3x32_S100000x32_1_0_0_1_n_n.contr.Idx, l (Cert.ReferenceIdeal.dot_S100000x3_S3x32_S100000x32_1_0_0_1_n_n.lhsIdx j k) * r (Cert.ReferenceIdeal.dot_S100000x3_S3x32_S100000x32_1_0_0_1_n_n.rhsIdx j k) = rowsByCols l r j :=
  Cert.LibPlainDot.contr_sum Cert.ReferenceIdeal.dot_S100000x3_S3x32_S100000x32_1_0_0_1_n_n rfl rfl
    (fun j q => by
      unfold DotDims.lhsIdx
      rw [dif_neg (show ¬(0 : Fin Cert.ReferenceIdeal.S100000x3.rank) ∈ Cert.ReferenceIdeal.dot_S100000x3_S3x32_S100000x32_1_0_0_1_n_n.lhsBatch by decide), dif_pos (show (0 : Fin Cert.ReferenceIdeal.S100000x3.rank) ∈ Cert.ReferenceIdeal.dot_S100000x3_S3x32_S100000x32_1_0_0_1_n_n.lhsNonContracting by decide)]
      rfl)
    (fun j q => Cert.ReferenceIdeal.dot_S100000x3_S3x32_S100000x32_1_0_0_1_n_n.lhsIdx_val_of_single rfl j q)
    (fun j q => Cert.ReferenceIdeal.dot_S100000x3_S3x32_S100000x32_1_0_0_1_n_n.rhsIdx_val_of_single rfl j q)
    (fun j q => by
      unfold DotDims.rhsIdx
      rw [dif_neg (show ¬(1 : Fin Cert.ReferenceIdeal.S3x32.rank) ∈ Cert.ReferenceIdeal.dot_S100000x3_S3x32_S100000x32_1_0_0_1_n_n.rhsBatch by decide), dif_pos (show (1 : Fin Cert.ReferenceIdeal.S3x32.rank) ∈ Cert.ReferenceIdeal.dot_S100000x3_S3x32_S100000x32_1_0_0_1_n_n.rhsNonContracting by decide)]
      rfl)
    l r j

/-- The reference's second product: 100000 rows of 32 by 32 rows of 32. -/
theorem contrR2 (l : Cert.ReferenceIdeal.S100000x32.Idx → EReal) (r : Cert.ReferenceIdeal.S32x32.Idx → EReal) (j) :
    ∑ k : Cert.ReferenceIdeal.dot_S100000x32_S32x32_S100000x32_1_0_0_1_n_n.contr.Idx, l (Cert.ReferenceIdeal.dot_S100000x32_S32x32_S100000x32_1_0_0_1_n_n.lhsIdx j k) * r (Cert.ReferenceIdeal.dot_S100000x32_S32x32_S100000x32_1_0_0_1_n_n.rhsIdx j k) = rowsByCols l r j :=
  Cert.LibPlainDot.contr_sum Cert.ReferenceIdeal.dot_S100000x32_S32x32_S100000x32_1_0_0_1_n_n rfl rfl
    (fun j q => by
      unfold DotDims.lhsIdx
      rw [dif_neg (show ¬(0 : Fin Cert.ReferenceIdeal.S100000x32.rank) ∈ Cert.ReferenceIdeal.dot_S100000x32_S32x32_S100000x32_1_0_0_1_n_n.lhsBatch by decide), dif_pos (show (0 : Fin Cert.ReferenceIdeal.S100000x32.rank) ∈ Cert.ReferenceIdeal.dot_S100000x32_S32x32_S100000x32_1_0_0_1_n_n.lhsNonContracting by decide)]
      rfl)
    (fun j q => Cert.ReferenceIdeal.dot_S100000x32_S32x32_S100000x32_1_0_0_1_n_n.lhsIdx_val_of_single rfl j q)
    (fun j q => Cert.ReferenceIdeal.dot_S100000x32_S32x32_S100000x32_1_0_0_1_n_n.rhsIdx_val_of_single rfl j q)
    (fun j q => by
      unfold DotDims.rhsIdx
      rw [dif_neg (show ¬(1 : Fin Cert.ReferenceIdeal.S32x32.rank) ∈ Cert.ReferenceIdeal.dot_S100000x32_S32x32_S100000x32_1_0_0_1_n_n.rhsBatch by decide), dif_pos (show (1 : Fin Cert.ReferenceIdeal.S32x32.rank) ∈ Cert.ReferenceIdeal.dot_S100000x32_S32x32_S100000x32_1_0_0_1_n_n.rhsNonContracting by decide)]
      rfl)
    l r j

/-! ## The kernel bodies' payloads -/

section Kernel
open Cert.KernelIdeal Cert.KernelIdeal.Gen

/-- The first product's body: narrow both blocks, multiply into zero — the rows-by-columns sum of the two blocks. -/
theorem pay0_eq (x0 : Vec Ideal S5000x3 .f32) (x1 : Vec Ideal S3x32 .f32) :
    k0_pay1 (F := Ideal) x0 x1 = rowsByCols (A := 5000) (K := 3) (B := 32) x0 x1 := by
  funext j
  unfold k0_pay1
  show FloatOps.matmul (F := Ideal) dot_S5000x3_S3x32_S5000x32_1_0_0_1_n_n none (truncf (F := Ideal) (φ := .f32) .bf16 x0 bitsLt_bf16_f32) (truncf (F := Ideal) (φ := .f32) .bf16 x1 bitsLt_bf16_f32)
    (constant S5000x32 .f32 0x00000000#32) j = _
  rw [Ideal.matmul_constant_zero_apply]
  exact contrK0 x0 x1 j

/-- The second product's body: the same, its left block first passed through an identity reshape. -/
theorem pay2_eq (x0 : Vec Ideal S5000x32 .f32) (x1 : Vec Ideal S32x32 .f32) :
    k2_pay1 (F := Ideal) x0 x1 = rowsByCols (A := 5000) (K := 32) (B := 32) x0 x1 := by
  funext j
  unfold k2_pay1
  show FloatOps.matmul (F := Ideal) dot_S5000x32_S32x32_S5000x32_1_0_0_1_n_n none
    (truncf (F := Ideal) (φ := .f32) .bf16 (shapeCast S5000x32 x0 shapeCasts_S5000x32_S5000x32) bitsLt_bf16_f32) (truncf (F := Ideal) (φ := .f32) .bf16 x1 bitsLt_bf16_f32)
    (constant S5000x32 .f32 0x00000000#32) j = _
  rw [Ideal.matmul_constant_zero_apply, shapeCast_self]
  exact contrK2 x0 x1 j

end Kernel

/-! ## The reference's products -/

section Reference
open Cert.ReferenceIdeal Cert.ReferenceIdeal.Gen

/-- The reference's first product is the rows-by-columns sum. -/
theorem refDot1 (x : (⟨S100000x3, .f32⟩ : BufTy).Contents (Elt Ideal)) (w : (⟨S3x32, .f32⟩ : BufTy).Contents (Elt Ideal)) :
    Host.dotGeneral (F := Ideal) (φ₁ := .f32) (φ₂ := .f32) dot_S100000x3_S3x32_S100000x32_1_0_0_1_n_n none x w
      = rowsByCols (A := 100000) (K := 3) (B := 32) x w := by
  funext j
  show FloatOps.dotGeneral (F := Ideal) (φ₁ := .f32) (φ₂ := .f32) dot_S100000x3_S3x32_S100000x32_1_0_0_1_n_n none .single x w j = _
  rw [Ideal.dotGeneral_apply]
  exact contrR1 x w j

/-- The reference's second product is the rows-by-columns sum. -/
theorem refDot2 (x : (⟨S100000x32, .f32⟩ : BufTy).Contents (Elt Ideal)) (w : (⟨S32x32, .f32⟩ : BufTy).Contents (Elt Ideal)) :
    Host.dotGeneral (F := Ideal) (φ₁ := .f32) (φ₂ := .f32) dot_S100000x32_S32x32_S100000x32_1_0_0_1_n_n none x w
      = rowsByCols (A := 100000) (K := 32) (B := 32) x w := by
  funext j
  show FloatOps.dotGeneral (F := Ideal) (φ₁ := .f32) (φ₂ := .f32) dot_S100000x32_S32x32_S100000x32_1_0_0_1_n_n none .single x w j = _
  rw [Ideal.dotGeneral_apply]
  exact contrR2 x w j

end Reference

end Cert.MatProd

end
-- ==== Proof.RegionMM.lean ====
/-
  The two pipelined matrix products, each as ONE product of whole arrays.

  A call walks 20 grid points; at point `t` it stages rows `5000 t … 5000 t + 4999` of the left operand and the whole
  weight matrix, multiplies them, and writes the 5000 resulting rows back.  A block's coordinate is always
  `block index * block size + coordinate inside the block`, the weight block's and every column block's index is 0, so
  what point `t` writes back is exactly rows `5000 t …` of the product of the WHOLE left array by the weights.  The
  20 blocks cover every row (row `r` lies in block `r / 5000`), so the output array ends as that whole product.
  Everything is stated for arbitrary contents `V` of the buffers when the call is entered.
-/
import proofs.«122990_j31868657336593_2_alg».proof.Proof.Gen.KernelIdeal.Frame
import proofs.«122990_j31868657336593_2_alg».proof.Proof.MatProd
import Idealize.ShloMosaic.Lib.Pipeline.Value

set_option maxRecDepth 16384

noncomputable section

open scoped BigOperators

namespace Cert.KernelIdeal.Blocks

open Cert.KernelIdeal Cert.KernelIdeal.Gen Cert.Spec
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## The first product: the node features by the first layer's weights -/

/-- The printed index maps over the grid: the row block of the left operand moves with the output's; the weight block
    and every column block stay at 0. -/
theorem idx0 : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = 0 ∧ win0_2.index t (1 : Fin 2) = 0 :=
  (by decide +kernel : ∀ t : Fin grid0.N, _)

/-- Each of the 20 row blocks is some point's. -/
theorem onto0 : ∀ q : Fin 20, ∃ t : Fin cfg0.N, win0_2.index t = ![q.val, 0] :=
  (by decide +kernel : ∀ q : Fin 20, ∃ t : Fin grid0.N, win0_2.index t = ![q.val, 0])

/-- What point `t` writes back is block `t` of the whole product. -/
theorem flushed0 (c : Dev nD) (t : Fin cfg0.N) :
    (dat0 (F := Ideal) V c).flushed 2 t = ((cfg0.win 2).blk t).view.read (Elt Ideal)
      (rowsByCols (A := 100000) (K := 3) (B := 32) (V c main_arg0) (V c main_arg3)) := by
  show (cfg0.win 2).cut (grid0.coords t) ((dat0 V c).after 2 t) = _
  rw [after0_2]
  unfold out0_2
  rw [View.canon_unit_zero hz]
  simp only [View.ld_unit_zero (S := S5000x3) hz, View.ld_unit_zero (S := S3x32) hz]
  rw [Cert.MatProd.pay0_eq]
  obtain ⟨e0, e1, e2, e3, e4⟩ := idx0 t
  funext j
  show (∑ k : Fin 3, (show EReal from V c main_arg0 (((cfg0.win 0).blk t).view.emb (ix2 (j 0) k))) * (show EReal from V c main_arg3 (((cfg0.win 1).blk t).view.emb (ix2 k (j 1)))))
     = ∑ k : Fin 3, (show EReal from V c main_arg0 (ix2 ((((cfg0.win 2).blk t).view.emb j) 0) k)) * (show EReal from V c main_arg3 (ix2 k ((((cfg0.win 2).blk t).view.emb j) 1)))
  refine Finset.sum_congr rfl fun k _ => ?_
  have h0 : ((cfg0.win 0).blk t).view.emb (ix2 (j 0) k) = ix2 ((((cfg0.win 2).blk t).view.emb j) 0) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 3 + 1 * k.val = k.val; omega
  have h1 : ((cfg0.win 1).blk t).view.emb (ix2 k (j 1)) = ix2 k ((((cfg0.win 2).blk t).view.emb j) 1) := by
    funext a; apply Fin.ext
    match a with
    | ⟨0, _⟩ => show win0_1.index t (0 : Fin 2) * 3 + 1 * k.val = k.val; omega
    | ⟨1, _⟩ => show win0_1.index t (1 : Fin 2) * 32 + 1 * (j 1).val = win0_2.index t (1 : Fin 2) * 32 + 1 * (j 1).val; omega
  rw [h0, h1]
  rfl

/-- An index of the output array is in point `t`'s block iff each coordinate is in the block's range. -/
theorem mem_blk0 (t : Fin cfg0.N) (i : S100000x32.Idx) :
    i ∈ ((cfg0.win 2).blk t).view.set ↔ ∀ a : Fin 2, win0_2.index t a * S5000x32.size a ≤ (i a).val ∧ (i a).val < win0_2.index t a * S5000x32.size a + S5000x32.size a := by
  show i ∈ ((View.whole main_v29).slice (win0_2.rect t)).set ↔ _
  rw [View.set_slice_whole, Rect.mem_set_unit]
  exact Iff.rfl

/-- Every row of the output is in the block of the point numbered `row / 5000`. -/
theorem cover0 (i : S100000x32.Idx) : ∃ t : Fin cfg0.N, (cfg0.win 2).flush t = true ∧ i ∈ ((cfg0.win 2).blk t).view.set := by
  have hi0 : (i 0).val < 100000 := (i 0).isLt
  have hi1 : (i 1).val < 32 := (i 1).isLt
  obtain ⟨t, ht⟩ := onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 32 ≤ (i 1).val ∧ (i 1).val < win0_2.index t (1 : Fin 2) * 32 + 32; omega

/-- The output array after the call: the whole product of the two arrays the call found. -/
theorem final0 (c : Dev nD) :
    (dat0 (F := Ideal) V c).arrAt 2 cfg0.N = rowsByCols (A := 100000) (K := 3) (B := 32) (V c main_arg0) (V c main_arg3) :=
  (dat0 (F := Ideal) V c).arrAt_eq_of_cover 2 _ (fun t _ => flushed0 V c t) cover0

/-! ## The second product: the first layer's output by the second layer's weights -/

/-- The printed index maps over the grid: the row block of the left operand moves with the output's; the weight block
    and every column block stay at 0. -/
theorem idx2 : ∀ t : Fin cfg2.N, win2_0.index t (0 : Fin 2) = win2_2.index t (0 : Fin 2) ∧ win2_0.index t (1 : Fin 2) = 0
    ∧ win2_1.index t (0 : Fin 2) = 0 ∧ win2_1.index t (1 : Fin 2) = 0 ∧ win2_2.index t (1 : Fin 2) = 0 :=
  (by decide +kernel : ∀ t : Fin grid2.N, _)

/-- Each of the 20 row blocks is some point's. -/
theorem onto2 : ∀ q : Fin 20, ∃ t : Fin cfg2.N, win2_2.index t = ![q.val, 0] :=
  (by decide +kernel : ∀ q : Fin 20, ∃ t : Fin grid2.N, win2_2.index t = ![q.val, 0])

/-- What point `t` writes back is block `t` of the whole product. -/
theorem flushed2 (c : Dev nD) (t : Fin cfg2.N) :
    (dat2 (F := Ideal) V c).flushed 2 t = ((cfg2.win 2).blk t).view.read (Elt Ideal)
      (rowsByCols (A := 100000) (K := 32) (B := 32) (V c main_v51) (V c main_arg5)) := by
  show (cfg2.win 2).cut (grid2.coords t) ((dat2 V c).after 2 t) = _
  rw [after2_2]
  unfold out2_2
  rw [View.canon_unit_zero hz]
  simp only [View.ld_unit_zero (S := S5000x32) hz, View.ld_unit_zero (S := S32x32) hz]
  rw [Cert.MatProd.pay2_eq]
  obtain ⟨e0, e1, e2, e3, e4⟩ := idx2 t
  funext j
  show (∑ k : Fin 32, (show EReal from V c main_v51 (((cfg2.win 0).blk t).view.emb (ix2 (j 0) k))) * (show EReal from V c main_arg5 (((cfg2.win 1).blk t).view.emb (ix2 k (j 1)))))
     = ∑ k : Fin 32, (show EReal from V c main_v51 (ix2 ((((cfg2.win 2).blk t).view.emb j) 0) k)) * (show EReal from V c main_arg5 (ix2 k ((((cfg2.win 2).blk t).view.emb j) 1)))
  refine Finset.sum_congr rfl fun k _ => ?_
  have h0 : ((cfg2.win 0).blk t).view.emb (ix2 (j 0) k) = ix2 ((((cfg2.win 2).blk t).view.emb j) 0) k := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 32 + 1 * k.val = k.val; omega
  have h1 : ((cfg2.win 1).blk t).view.emb (ix2 k (j 1)) = ix2 k ((((cfg2.win 2).blk t).view.emb j) 1) := by
    funext a; apply Fin.ext
    match a with
    | ⟨0, _⟩ => show win2_1.index t (0 : Fin 2) * 32 + 1 * k.val = k.val; omega
    | ⟨1, _⟩ => show win2_1.index t (1 : Fin 2) * 32 + 1 * (j 1).val = win2_2.index t (1 : Fin 2) * 32 + 1 * (j 1).val; omega
  rw [h0, h1]
  rfl

/-- An index of the output array is in point `t`'s block iff each coordinate is in the block's range. -/
theorem mem_blk2 (t : Fin cfg2.N) (i : S100000x32.Idx) :
    i ∈ ((cfg2.win 2).blk t).view.set ↔ ∀ a : Fin 2, win2_2.index t a * S5000x32.size a ≤ (i a).val ∧ (i a).val < win2_2.index t a * S5000x32.size a + S5000x32.size a := by
  show i ∈ ((View.whole main_v52).slice (win2_2.rect t)).set ↔ _
  rw [View.set_slice_whole, Rect.mem_set_unit]
  exact Iff.rfl

/-- Every row of the output is in the block of the point numbered `row / 5000`. -/
theorem cover2 (i : S100000x32.Idx) : ∃ t : Fin cfg2.N, (cfg2.win 2).flush t = true ∧ i ∈ ((cfg2.win 2).blk t).view.set := by
  have hi0 : (i 0).val < 100000 := (i 0).isLt
  have hi1 : (i 1).val < 32 := (i 1).isLt
  obtain ⟨t, ht⟩ := onto2 ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 32 ≤ (i 1).val ∧ (i 1).val < win2_2.index t (1 : Fin 2) * 32 + 32; omega

/-- The output array after the call: the whole product of the two arrays the call found. -/
theorem final2 (c : Dev nD) :
    (dat2 (F := Ideal) V c).arrAt 2 cfg2.N = rowsByCols (A := 100000) (K := 32) (B := 32) (V c main_v51) (V c main_arg5) :=
  (dat2 (F := Ideal) V c).arrAt_eq_of_cover 2 _ (fun t _ => flushed2 V c t) cover2

end Cert.KernelIdeal.Blocks

end
-- ==== Proof.RegionCB.lean ====
/-
  The two pipelined combines, each as ONE combine of whole arrays.

  A call walks 5 grid points over 25000 rows of 128 lanes; at point `t` it stages rows `5000 t … 5000 t + 4999` of
  the neighbour sums, of the products and of the self-loop weights, and the one row of tiled bias, forms
  `max((a + s * x) + b, 0)` entry by entry and writes the 5000 rows back.  The three full-width blocks sit at the
  output block's place and the bias row is the same at every point, so what point `t` writes back is rows `5000 t …`
  of the combine of the WHOLE arrays; the 5 blocks cover every row (row `r` lies in block `r / 5000`).
  Everything is stated for arbitrary contents `V` of the buffers when the call is entered.
-/
import proofs.«122990_j31868657336593_2_alg».proof.Proof.Gen.KernelIdeal.Frame
import proofs.«122990_j31868657336593_2_alg».proof.Proof.Spec
import Idealize.ShloMosaic.Lib.Pipeline.Value

set_option maxRecDepth 16384
set_option maxHeartbeats 1000000

noncomputable section

namespace Cert.KernelIdeal.Rows

open Cert.KernelIdeal Cert.KernelIdeal.Gen Cert.Spec
open Idealize.ShloMosaic Idealize.ShloMosaic.TcCoe Idealize.ShloMosaic.ValueIdx
open Idealize.SL Idealize.SL.Sem
open Idealize.ShloMosaic.Pipeline (Dat Cfg Window)

/-! ## The body -/

/-- The body of call 1: three identity reshapes, the product, two sums (the one-row bias spread over the rows), the maximum
    with the zero word — entry by entry the combine of its four blocks. -/
theorem pay1_eq (v0 v2 v4 : Vec Ideal S5000x128 .f32) (v8 : Vec Ideal S1x128 .f32) :
    k1_pay1 (F := Ideal) v0 v2 v4 v8 = combineRows (R := 5000) (L := 128) v0 v4 v2 v8 := by
  funext j
  unfold k1_pay1
  simp only [shapeCast_self]
  show max ((v0 j + v2 j * v4 j) + broadcastTo S5000x128 v8 broadcasts_S1x128_S5000x128 j) (Ideal.ofBits .f32 0x00000000#32)
    = max ((v0 j + v2 j * v4 j) + v8 (ix2 (0 : Fin 1) (j 1))) (Ideal.ofBits .f32 0x00000000#32)
  rw [broadcastTo_apply v8 broadcasts_S1x128_S5000x128 j (ix2 (0 : Fin 1) (j 1)) (fun a => match a with
    | ⟨0, _⟩ => by show 0 = if (1 : Nat) = 1 then 0 else (j 0).val; rw [if_pos rfl]
    | ⟨1, _⟩ => by show (j 1).val = if (128 : Nat) = 1 then 0 else (j 1).val; rw [if_neg (by decide)])]

/-- The body of call 3: three identity reshapes, the product, two sums (the one-row bias spread over the rows), the maximum
    with the zero word — entry by entry the combine of its four blocks. -/
theorem pay3_eq (v0 v2 v4 : Vec Ideal S5000x128 .f32) (v8 : Vec Ideal S1x128 .f32) :
    k3_pay1 (F := Ideal) v0 v2 v4 v8 = combineRows (R := 5000) (L := 128) v0 v4 v2 v8 := by
  funext j
  unfold k3_pay1
  simp only [shapeCast_self]
  show max ((v0 j + v2 j * v4 j) + broadcastTo S5000x128 v8 broadcasts_S1x128_S5000x128 j) (Ideal.ofBits .f32 0x00000000#32)
    = max ((v0 j + v2 j * v4 j) + v8 (ix2 (0 : Fin 1) (j 1))) (Ideal.ofBits .f32 0x00000000#32)
  rw [broadcastTo_apply v8 broadcasts_S1x128_S5000x128 j (ix2 (0 : Fin 1) (j 1)) (fun a => match a with
    | ⟨0, _⟩ => by show 0 = if (1 : Nat) = 1 then 0 else (j 0).val; rw [if_pos rfl]
    | ⟨1, _⟩ => by show (j 1).val = if (128 : Nat) = 1 then 0 else (j 1).val; rw [if_neg (by decide)])]

/-! ## From blocks to arrays -/

variable (V : (c : Dev nD) → (b : Ref sig .tc) → Buf (Elt Ideal) ((c : Thread nD τ).loc b))

theorem hz : (![0, 0] : Fin 2 → Nat) = fun _ => 0 := funext fun a => by fin_cases a <;> rfl

/-! ## The first layer's combine -/

/-- The printed index maps over the grid: the three full-width operands' row blocks move with the output's, the bias
    row and every lane block stay at 0. -/
theorem idx1 : ∀ t : Fin cfg1.N, win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = win1_4.index t (0 : Fin 2) ∧ win1_2.index t (1 : Fin 2) = 0
    ∧ win1_3.index t (0 : Fin 2) = 0 ∧ win1_3.index t (1 : Fin 2) = 0 ∧ win1_4.index t (1 : Fin 2) = 0 :=
  (by decide +kernel : ∀ t : Fin grid1.N, _)

/-- Each of the 5 row blocks is some point's. -/
theorem onto1 : ∀ q : Fin 5, ∃ t : Fin cfg1.N, win1_4.index t = ![q.val, 0] :=
  (by decide +kernel : ∀ q : Fin 5, ∃ t : Fin grid1.N, win1_4.index t = ![q.val, 0])

/-- What point `t` writes back is block `t` of the combine of the four WHOLE arrays. -/
theorem flushed1 (c : Dev nD) (t : Fin cfg1.N) :
    (dat1 (F := Ideal) V c).flushed 4 t = ((cfg1.win 4).blk t).view.read (Elt Ideal)
      (combineRows (R := 25000) (L := 128) (V c main_v42) (V c main_v43) (V c main_v45) (V c main_v49)) := by
  show (cfg1.win 4).cut (grid1.coords t) ((dat1 V c).after 4 t) = _
  rw [after1_4]
  unfold out1_4
  rw [View.canon_unit_zero hz]
  simp only [View.ld_unit_zero (S := S5000x128) hz, View.ld_unit_zero (S := S1x128) hz]
  rw [pay1_eq]
  obtain ⟨e0, e1, e2, e3, e4, e5, e6, e7, e8⟩ := idx1 t
  funext j
  show max (((show EReal from V c main_v42 (((cfg1.win 0).blk t).view.emb j))
        + (show EReal from V c main_v45 (((cfg1.win 2).blk t).view.emb j)) * (show EReal from V c main_v43 (((cfg1.win 1).blk t).view.emb j)))
      + (show EReal from V c main_v49 (((cfg1.win 3).blk t).view.emb (ix2 (0 : Fin 1) (j 1))))) (Ideal.ofBits .f32 0x00000000#32)
    = max (((show EReal from V c main_v42 (((cfg1.win 4).blk t).view.emb j))
        + (show EReal from V c main_v45 (((cfg1.win 4).blk t).view.emb j)) * (show EReal from V c main_v43 (((cfg1.win 4).blk t).view.emb j)))
      + (show EReal from V c main_v49 (ix2 (0 : Fin 1) ((((cfg1.win 4).blk t).view.emb j) 1)))) (Ideal.ofBits .f32 0x00000000#32)
  have h0 : ((cfg1.win 0).blk t).view.emb j = ((cfg1.win 4).blk t).view.emb j := by
    funext a; apply Fin.ext
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 128 + 1 * (j 1).val = win1_4.index t (1 : Fin 2) * 128 + 1 * (j 1).val; omega
  have h1 : ((cfg1.win 1).blk t).view.emb j = ((cfg1.win 4).blk t).view.emb j := by
    funext a; apply Fin.ext
    match a with
    | ⟨0, _⟩ => show win1_1.index t (0 : Fin 2) * 5000 + 1 * (j 0).val = win1_4.index t (0 : Fin 2) * 5000 + 1 * (j 0).val; omega
    | ⟨1, _⟩ => show win1_1.index t (1 : Fin 2) * 128 + 1 * (j 1).val = win1_4.index t (1 : Fin 2) * 128 + 1 * (j 1).val; omega
  have h2 : ((cfg1.win 2).blk t).view.emb j = ((cfg1.win 4).blk t).view.emb j := by
    funext a; apply Fin.ext
    match a with
    | ⟨0, _⟩ => show win1_2.index t (0 : Fin 2) * 5000 + 1 * (j 0).val = win1_4.index t (0 : Fin 2) * 5000 + 1 * (j 0).val; omega
    | ⟨1, _⟩ => show win1_2.index t (1 : Fin 2) * 128 + 1 * (j 1).val = win1_4.index t (1 : Fin 2) * 128 + 1 * (j 1).val; omega
  have h3 : ((cfg1.win 3).blk t).view.emb (ix2 (0 : Fin 1) (j 1)) = ix2 (0 : Fin 1) ((((cfg1.win 4).blk t).view.emb j) 1) := by
    funext a; apply Fin.ext
    match a with
    | ⟨0, _⟩ => show win1_3.index t (0 : Fin 2) * 1 + 1 * 0 = 0; omega
    | ⟨1, _⟩ => show win1_3.index t (1 : Fin 2) * 128 + 1 * (j 1).val = win1_4.index t (1 : Fin 2) * 128 + 1 * (j 1).val; omega
  rw [h0, h1, h2, h3]
  rfl

/-- An index of the output array is in point `t`'s block iff each coordinate is in the block's range. -/
theorem mem_blk1 (t : Fin cfg1.N) (i : S25000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v50).slice (win1_4.rect t)).set ↔ _
  rw [View.set_slice_whole, Rect.mem_set_unit]
  exact Iff.rfl

/-- Every row of the output is in the block of the point numbered `row / 5000`. -/
theorem cover1 (i : S25000x128.Idx) : ∃ t : Fin cfg1.N, (cfg1.win 4).flush t = true ∧ i ∈ ((cfg1.win 4).blk t).view.set := by
  have hi0 : (i 0).val < 25000 := (i 0).isLt
  have hi1 : (i 1).val < 128 := (i 1).isLt
  obtain ⟨t, ht⟩ := onto1 ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk1]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- The output array after the call: the combine of the four arrays the call found. -/
theorem final1 (c : Dev nD) :
    (dat1 (F := Ideal) V c).arrAt 4 cfg1.N = combineRows (R := 25000) (L := 128) (V c main_v42) (V c main_v43) (V c main_v45) (V c main_v49) :=
  (dat1 (F := Ideal) V c).arrAt_eq_of_cover 4 _ (fun t _ => flushed1 V c t) cover1

/-! ## The second layer's combine -/

/-- The printed index maps over the grid: the three full-width operands' row blocks move with the output's, the bias
    row and every lane block stay at 0. -/
theorem idx3 : ∀ t : Fin cfg3.N, win3_0.index t (0 : Fin 2) = win3_4.index t (0 : Fin 2) ∧ win3_0.index t (1 : Fin 2) = 0
    ∧ win3_1.index t (0 : Fin 2) = win3_4.index t (0 : Fin 2) ∧ win3_1.index t (1 : Fin 2) = 0
    ∧ win3_2.index t (0 : Fin 2) = win3_4.index t (0 : Fin 2) ∧ win3_2.index t (1 : Fin 2) = 0
    ∧ win3_3.index t (0 : Fin 2) = 0 ∧ win3_3.index t (1 : Fin 2) = 0 ∧ win3_4.index t (1 : Fin 2) = 0 :=
  (by decide +kernel : ∀ t : Fin grid3.N, _)

/-- Each of the 5 row blocks is some point's. -/
theorem onto3 : ∀ q : Fin 5, ∃ t : Fin cfg3.N, win3_4.index t = ![q.val, 0] :=
  (by decide +kernel : ∀ q : Fin 5, ∃ t : Fin grid3.N, win3_4.index t = ![q.val, 0])

/-- What point `t` writes back is block `t` of the combine of the four WHOLE arrays. -/
theorem flushed3 (c : Dev nD) (t : Fin cfg3.N) :
    (dat3 (F := Ideal) V c).flushed 4 t = ((cfg3.win 4).blk t).view.read (Elt Ideal)
      (combineRows (R := 25000) (L := 128) (V c main_v65) (V c main_v66) (V c main_v68) (V c main_v72)) := by
  show (cfg3.win 4).cut (grid3.coords t) ((dat3 V c).after 4 t) = _
  rw [after3_4]
  unfold out3_4
  rw [View.canon_unit_zero hz]
  simp only [View.ld_unit_zero (S := S5000x128) hz, View.ld_unit_zero (S := S1x128) hz]
  rw [pay3_eq]
  obtain ⟨e0, e1, e2, e3, e4, e5, e6, e7, e8⟩ := idx3 t
  funext j
  show max (((show EReal from V c main_v65 (((cfg3.win 0).blk t).view.emb j))
        + (show EReal from V c main_v68 (((cfg3.win 2).blk t).view.emb j)) * (show EReal from V c main_v66 (((cfg3.win 1).blk t).view.emb j)))
      + (show EReal from V c main_v72 (((cfg3.win 3).blk t).view.emb (ix2 (0 : Fin 1) (j 1))))) (Ideal.ofBits .f32 0x00000000#32)
    = max (((show EReal from V c main_v65 (((cfg3.win 4).blk t).view.emb j))
        + (show EReal from V c main_v68 (((cfg3.win 4).blk t).view.emb j)) * (show EReal from V c main_v66 (((cfg3.win 4).blk t).view.emb j)))
      + (show EReal from V c main_v72 (ix2 (0 : Fin 1) ((((cfg3.win 4).blk t).view.emb j) 1)))) (Ideal.ofBits .f32 0x00000000#32)
  have h0 : ((cfg3.win 0).blk t).view.emb j = ((cfg3.win 4).blk t).view.emb j := by
    funext a; apply Fin.ext
    match a with
    | ⟨0, _⟩ => show win3_0.index t (0 : Fin 2) * 5000 + 1 * (j 0).val = win3_4.index t (0 : Fin 2) * 5000 + 1 * (j 0).val; omega
    | ⟨1, _⟩ => show win3_0.index t (1 : Fin 2) * 128 + 1 * (j 1).val = win3_4.index t (1 : Fin 2) * 128 + 1 * (j 1).val; omega
  have h1 : ((cfg3.win 1).blk t).view.emb j = ((cfg3.win 4).blk t).view.emb j := by
    funext a; apply Fin.ext
    match a with
    | ⟨0, _⟩ => show win3_1.index t (0 : Fin 2) * 5000 + 1 * (j 0).val = win3_4.index t (0 : Fin 2) * 5000 + 1 * (j 0).val; omega
    | ⟨1, _⟩ => show win3_1.index t (1 : Fin 2) * 128 + 1 * (j 1).val = win3_4.index t (1 : Fin 2) * 128 + 1 * (j 1).val; omega
  have h2 : ((cfg3.win 2).blk t).view.emb j = ((cfg3.win 4).blk t).view.emb j := by
    funext a; apply Fin.ext
    match a with
    | ⟨0, _⟩ => show win3_2.index t (0 : Fin 2) * 5000 + 1 * (j 0).val = win3_4.index t (0 : Fin 2) * 5000 + 1 * (j 0).val; omega
    | ⟨1, _⟩ => show win3_2.index t (1 : Fin 2) * 128 + 1 * (j 1).val = win3_4.index t (1 : Fin 2) * 128 + 1 * (j 1).val; omega
  have h3 : ((cfg3.win 3).blk t).view.emb (ix2 (0 : Fin 1) (j 1)) = ix2 (0 : Fin 1) ((((cfg3.win 4).blk t).view.emb j) 1) := by
    funext a; apply Fin.ext
    match a with
    | ⟨0, _⟩ => show win3_3.index t (0 : Fin 2) * 1 + 1 * 0 = 0; omega
    | ⟨1, _⟩ => show win3_3.index t (1 : Fin 2) * 128 + 1 * (j 1).val = win3_4.index t (1 : Fin 2) * 128 + 1 * (j 1).val; omega
  rw [h0, h1, h2, h3]
  rfl

/-- An index of the output array is in point `t`'s block iff each coordinate is in the block's range. -/
theorem mem_blk3 (t : Fin cfg3.N) (i : S25000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v73).slice (win3_4.rect t)).set ↔ _
  rw [View.set_slice_whole, Rect.mem_set_unit]
  exact Iff.rfl

/-- Every row of the output is in the block of the point numbered `row / 5000`. -/
theorem cover3 (i : S25000x128.Idx) : ∃ t : Fin cfg3.N, (cfg3.win 4).flush t = true ∧ i ∈ ((cfg3.win 4).blk t).view.set := by
  have hi0 : (i 0).val < 25000 := (i 0).isLt
  have hi1 : (i 1).val < 128 := (i 1).isLt
  obtain ⟨t, ht⟩ := onto3 ⟨(i 0).val / 5000, by omega⟩
  have q0 : win3_4.index t (0 : Fin 2) = (i 0).val / 5000 := congrFun ht 0
  have q1 : win3_4.index t (1 : Fin 2) = 0 := congrFun ht 1
  refine ⟨t, flush3_4 t, ?_⟩
  rw [mem_blk3]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 128 ≤ (i 1).val ∧ (i 1).val < win3_4.index t (1 : Fin 2) * 128 + 128; omega

/-- The output array after the call: the combine of the four arrays the call found. -/
theorem final3 (c : Dev nD) :
    (dat3 (F := Ideal) V c).arrAt 4 cfg3.N = combineRows (R := 25000) (L := 128) (V c main_v65) (V c main_v66) (V c main_v68) (V c main_v72) :=
  (dat3 (F := Ideal) V c).arrAt_eq_of_cover 4 _ (fun t _ => flushed3 V c t) cover3

end Cert.KernelIdeal.Rows

end
-- ==== Proof.Relayout.lean ====
/-
  The combine in the lane-dense layout is the reference's layer formula.

  The kernel lays the [100000, 32] node table out as 25000 rows of 128 lanes (four nodes to a row), so that the
  combine works on full 128-lane rows; the bias is tiled four times into one 128-lane row.  Node `n`, feature `d`
  sits at flat position `32 n + d`, that is at row `(32 n + d) / 128`, lane `(32 n + d) % 128`, and the lane's
  bias entry is `lane % 32 = d`.  Entry by entry the kernel forms
        max( (a + s * xw) + b , 0 )
  where the reference forms
        max( (a + xw * s) + b , 0 ),
  `a` the neighbour sum, `s` the self-loop weight of the node, `b` the bias of the feature.  The two differ by the
  order of one product: commutativity of multiplication on the extended reals, which needs no finiteness.
-/
import proofs.«122990_j31868657336593_2_alg».proof.Proof.Spec
import Idealize.ShloMosaic.Lib.Pipeline.Value

set_option maxRecDepth 16384

noncomputable section

namespace Cert.Relayout

open Cert.ReferenceIdeal Cert.ReferenceIdeal.Gen Idealize.ShloMosaic Idealize.ShloMosaic.ValueIdx Cert.Spec

abbrev R25000x128 : Shape := ⟨2, ![25000, 128]⟩
abbrev R4x32 : Shape := ⟨2, ![4, 32]⟩
abbrev R128 : Shape := ⟨1, ![128]⟩
abbrev R1x128 : Shape := ⟨2, ![1, 128]⟩

/-! ## Positions -/

/-- Where node `n`, feature `d` sits among the 128-lane rows. -/
abbrev dense (i : S100000x32.Idx) : R25000x128.Idx := fun a => match a with
  | ⟨0, _⟩ => ⟨((i 0).val * 32 + (i 1).val) / 128, by
      have h0 : (i 0).val < 100000 := (i 0).isLt
      have h1 : (i 1).val < 32 := (i 1).isLt
      show ((i 0).val * 32 + (i 1).val) / 128 < 25000; omega⟩
  | ⟨1, _⟩ => ⟨((i 0).val * 32 + (i 1).val) % 128, by show ((i 0).val * 32 + (i 1).val) % 128 < 128; omega⟩

/-- The two positions are the same flat position. -/
theorem dense_flat (i : S100000x32.Idx) : (R25000x128.rowMajor (dense i)).val = (S100000x32.rowMajor i).val := by
  rewrite [Shape.rowMajor_val_two, Shape.rowMajor_val_two]
  show ((i 0).val * 32 + (i 1).val) / 128 * 128 + ((i 0).val * 32 + (i 1).val) % 128 = (i 0).val * 32 + (i 1).val
  omega

/-- A node table re-laid into 128-lane rows, read at a node's dense position, is the table at the node. -/
theorem toDense_apply {α : Type} (v : S100000x32.Idx → α) (h : S100000x32.ShapeCasts R25000x128) (i : S100000x32.Idx) :
    shapeCast R25000x128 v h (dense i) = v i :=
  shapeCast_apply v h (dense i) i (dense_flat i).symm

/-- 128-lane rows re-laid into a node table, read at a node, are the rows at the node's dense position. -/
theorem ofDense_apply {α : Type} (y : R25000x128.Idx → α) (h : R25000x128.ShapeCasts S100000x32) (i : S100000x32.Idx) :
    shapeCast S100000x32 y h i = y (dense i) :=
  shapeCast_apply y h i (dense i) (dense_flat i)

/-! ## The tiled bias -/

/-- The bias tiled four times into one 128-lane row, read at a lane, is the bias at `lane % 32`. -/
theorem tiled_bias_apply {α : Type} (b : S32.Idx → α) (h1 : S32.ShapeCasts S1x32)
    (h2 : S1x32.BroadcastsInDim R4x32 (![0, 1] : Fin 2 → Fin R4x32.rank)) (h3 : R4x32.ShapeCasts R128)
    (h4 : R128.ShapeCasts R1x128) (l : Fin 128) :
    shapeCast R1x128 (shapeCast R128 (broadcastInDim R4x32 ![0, 1] h2 (shapeCast S1x32 b h1)) h3) h4 (ix2 (0 : Fin 1) l)
      = b (ix1 (⟨l.val % 32, Nat.mod_lt _ (by decide)⟩ : Fin 32)) := by
  have hl : l.val < 128 := l.isLt
  -- the one row of 128 lanes is the flat list of 128
  rw [shapeCast_apply _ h4 (ix2 (0 : Fin 1) l) (ix1 l) (by
    rewrite [Shape.rowMajor_val_one, Shape.rowMajor_val_two]
    show l.val = 0 * 128 + l.val; omega)]
  -- the flat list of 128 is four rows of 32
  rw [shapeCast_apply _ h3 (ix1 l) (ix2 (⟨l.val / 32, by omega⟩ : Fin 4) (⟨l.val % 32, Nat.mod_lt _ (by decide)⟩ : Fin 32)) (by
    rewrite [Shape.rowMajor_val_two, Shape.rowMajor_val_one]
    show l.val / 32 * 32 + l.val % 32 = l.val; omega)]
  -- each of the four rows is the one row
  rw [broadcastInDim_apply _ h2 _ (ix2 (⟨l.val / 32, by omega⟩ : Fin 4) (⟨l.val % 32, Nat.mod_lt _ (by decide)⟩ : Fin 32))
    (ix2 (0 : Fin 1) (⟨l.val % 32, Nat.mod_lt _ (by decide)⟩ : Fin 32)) (fun a => match a with
      | ⟨0, _⟩ => by show 0 = if (1 : Nat) = 1 then 0 else l.val / 32; rw [if_pos rfl]
      | ⟨1, _⟩ => by show l.val % 32 = if (32 : Nat) = 1 then 0 else l.val % 32; rw [if_neg (by decide)])]
  -- the one row is the bias
  exact shapeCast_apply b h1 _ (ix1 (⟨l.val % 32, Nat.mod_lt _ (by decide)⟩ : Fin 32)) (by
    rewrite [Shape.rowMajor_val_one, Shape.rowMajor_val_two]
    show l.val % 32 = 0 * 32 + l.val % 32; omega)

/-! ## The reference's broadcasts at a node -/

/-- The bias broadcast over the nodes, read at a node, is the bias at the node's feature. -/
theorem bias_rows_apply (b : (⟨S32, .f32⟩ : BufTy).Contents (Elt Ideal)) (i : S100000x32.Idx) :
    broadcastInDim S100000x32 ![0, 1] bcast_S1x32_S100000x32_0_1 (broadcastInDim S1x32 ![1] bcast_S32_S1x32_1 b) i
      = b (ix1 (⟨(i 1).val, (i 1).isLt⟩ : Fin 32)) := by
  rw [broadcastInDim_apply _ bcast_S1x32_S100000x32_0_1 _ i (ix2 (0 : Fin 1) (⟨(i 1).val, (i 1).isLt⟩ : Fin 32)) (fun a => match a with
      | ⟨0, _⟩ => by show 0 = if (1 : Nat) = 1 then 0 else (i 0).val; rw [if_pos rfl]
      | ⟨1, _⟩ => by show (i 1).val = if (32 : Nat) = 1 then 0 else (i 1).val; rw [if_neg (by decide)])]
  exact broadcastInDim_apply _ bcast_S32_S1x32_1 b _ (ix1 (⟨(i 1).val, (i 1).isLt⟩ : Fin 32)) (fun a => match a with
      | ⟨0, _⟩ => by show (i 1).val = if (32 : Nat) = 1 then 0 else (i 1).val; rw [if_neg (by decide)])

/-- The zero table, read anywhere, is the zero word. -/
theorem zero_rows_apply (i : S100000x32.Idx) :
    broadcastInDim S100000x32 ![] bcast_S_S100000x32 (constant (F := Ideal) S_ .f32 0x00000000#32) i = Ideal.ofBits .f32 0x00000000#32 :=
  broadcastInDim_apply _ bcast_S_S100000x32 _ i ix0 (fun a => a.elim0)

/-! ## The law -/

/-- The combine over the dense layout, re-laid as a node table, is the reference's finish of a layer. -/
theorem combine_eq_finish (a xw : (⟨S100000x32, .f32⟩ : BufTy).Contents (Elt Ideal))
    (scol : (⟨S100000x1, .f32⟩ : BufTy).Contents (Elt Ideal)) (b : (⟨S32, .f32⟩ : BufTy).Contents (Elt Ideal))
    (hd : S100000x32.ShapeCasts R25000x128) (hu : R25000x128.ShapeCasts S100000x32)
    (hs : S100000x1.BroadcastsInDim S100000x32 (![0, 1] : Fin 2 → Fin S100000x32.rank))
    (h1 : S32.ShapeCasts S1x32) (h2 : S1x32.BroadcastsInDim R4x32 (![0, 1] : Fin 2 → Fin R4x32.rank))
    (h3 : R4x32.ShapeCasts R128) (h4 : R128.ShapeCasts R1x128) :
    shapeCast S100000x32
        (combineRows (R := 25000) (L := 128) (shapeCast R25000x128 a hd) (shapeCast R25000x128 xw hd)
          (shapeCast R25000x128 (broadcastInDim S100000x32 ![0, 1] hs scol) hd)
          (shapeCast R1x128 (shapeCast R128 (broadcastInDim R4x32 ![0, 1] h2 (shapeCast S1x32 b h1)) h3) h4)) hu
      = finishOf (F := Ideal) a xw scol b := by
  funext i
  have h0 : (i 0).val < 100000 := (i 0).isLt
  have hf : (i 1).val < 32 := (i 1).isLt
  rw [ofDense_apply]
  show max ((shapeCast R25000x128 a hd (dense i)
        + shapeCast R25000x128 (broadcastInDim S100000x32 ![0, 1] hs scol) hd (dense i) * shapeCast R25000x128 xw hd (dense i))
      + shapeCast R1x128 (shapeCast R128 (broadcastInDim R4x32 ![0, 1] h2 (shapeCast S1x32 b h1)) h3) h4
          (ix2 (0 : Fin 1) (⟨((i 0).val * 32 + (i 1).val) % 128, by omega⟩ : Fin 128)))
      (Ideal.ofBits .f32 0x00000000#32)
    = max ((a i + xw i * broadcastInDim S100000x32 ![0, 1] bcast_S100000x1_S100000x32_0_1 scol i)
      + broadcastInDim S100000x32 ![0, 1] bcast_S1x32_S100000x32_0_1 (broadcastInDim S1x32 ![1] bcast_S32_S1x32_1 b) i)
      (broadcastInDim S100000x32 ![] bcast_S_S100000x32 (constant (F := Ideal) S_ .f32 0x00000000#32) i)
  rw [toDense_apply, toDense_apply, toDense_apply, tiled_bias_apply, bias_rows_apply, zero_rows_apply, mul_comm (xw i)]
  have e : (⟨((i 0).val * 32 + (i 1).val) % 128 % 32, Nat.mod_lt _ (by decide)⟩ : Fin 32) = ⟨(i 1).val, (i 1).isLt⟩ :=
    Fin.ext (by show ((i 0).val * 32 + (i 1).val) % 128 % 32 = (i 1).val; omega)
  rw [e]

end Cert.Relayout

end
-- ==== Proof.Chain.lean ====
/-
  The value of the idealized kernel program: the last fold at the result buffer is the specification `G` of the
  launch contents of the nine arguments.

  The fold is walked from the launch memory forward, one cut at a time.  After the first stretch of host operations the
  edge lists and the two weight columns are in place; each kernel call replaces its output array by the whole-array
  function of the arrays it found (a rows-by-columns product, or the lane-dense combine) and leaves every other buffer
  alone; each later stretch reads those and the buffers carried past the calls.  The products are the reference's
  `dot_general`s (one sum, re-indexed), and a combine re-laid as a node table is the reference's layer formula (the
  order of one product).  What is left at the end is the group mean and affine map of the second layer's output.
-/
import proofs.«122990_j31868657336593_2_alg».proof.Proof.Gen.KernelIdeal.Frame
import proofs.«122990_j31868657336593_2_alg».proof.Proof.Stretch
import proofs.«122990_j31868657336593_2_alg».proof.Proof.RegionMM
import proofs.«122990_j31868657336593_2_alg».proof.Proof.RegionCB
import proofs.«122990_j31868657336593_2_alg».proof.Proof.Relayout
import proofs.«122990_j31868657336593_2_alg».proof.Proof.MatProd

set_option maxRecDepth 16384
set_option maxHeartbeats 1000000

noncomputable section

namespace Cert.KernelIdeal.Walk

open Cert.KernelIdeal Cert.KernelIdeal.Gen Cert.Spec
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## The closed terms -/

/-- The edge array as launched. -/
abbrev eE : (⟨Cert.ReferenceIdeal.S2x1600000, .i32⟩ : BufTy).Contents (Elt Ideal) := m ((c : Thread nD τ).loc main_arg1)
/-- The first product: the node features by the first layer's weights. -/
abbrev xw1 : (⟨Cert.ReferenceIdeal.S100000x32, .f32⟩ : BufTy).Contents (Elt Ideal) :=
  Host.dotGeneral (F := Ideal) (φ₁ := .f32) (φ₂ := .f32) Cert.ReferenceIdeal.dot_S100000x3_S3x32_S100000x32_1_0_0_1_n_n none (m ((c : Thread nD τ).loc main_arg0)) (m ((c : Thread nD τ).loc main_arg3))
/-- The first layer's output. -/
abbrev h1 : (⟨Cert.ReferenceIdeal.S100000x32, .f32⟩ : BufTy).Contents (Elt Ideal) :=
  layerOf (xw1 m c) (srcOf (eE m c)) (dstOf (eE m c)) (selfColOf (eE m c)) (normColOf (eE m c)) (m ((c : Thread nD τ).loc main_arg4))
/-- The second product: the first layer's output by the second layer's weights. -/
abbrev xw2 : (⟨Cert.ReferenceIdeal.S100000x32, .f32⟩ : BufTy).Contents (Elt Ideal) :=
  Host.dotGeneral (F := Ideal) (φ₁ := .f32) (φ₂ := .f32) Cert.ReferenceIdeal.dot_S100000x32_S32x32_S100000x32_1_0_0_1_n_n none (h1 m c) (m ((c : Thread nD τ).loc main_arg5))
/-- The second layer's output. -/
abbrev h2 : (⟨Cert.ReferenceIdeal.S100000x32, .f32⟩ : BufTy).Contents (Elt Ideal) :=
  layerOf (xw2 m c) (srcOf (eE m c)) (dstOf (eE m c)) (selfColOf (eE m c)) (normColOf (eE m c)) (m ((c : Thread nD τ).loc main_arg6))

/-! ## After the first stretch -/

theorem L1_src : W1 m ρ c (Proc.devRef .tc main_v1) = srcOf (eE m c) := Host.s0_src (W0 m ρ c)
theorem L1_dst : W1 m ρ c (Proc.devRef .tc main_v3) = dstOf (eE m c) := Host.s0_dst (W0 m ρ c)
theorem L1_self : W1 m ρ c (Proc.devRef .tc main_v12) = selfColOf (eE m c) := Host.s0_self (W0 m ρ c)
theorem L1_norm : W1 m ρ c (Proc.devRef .tc main_v28) = normColOf (eE m c) := Host.s0_norm (W0 m ρ c)
theorem L1_arg0 : W1 m ρ c (Proc.devRef .tc main_arg0) = m ((c : Thread nD τ).loc main_arg0) := Host.s0_keep_arg0 (W0 m ρ c)
theorem L1_arg2 : W1 m ρ c (Proc.devRef .tc main_arg2) = m ((c : Thread nD τ).loc main_arg2) := Host.s0_keep_arg2 (W0 m ρ c)
theorem L1_arg3 : W1 m ρ c (Proc.devRef .tc main_arg3) = m ((c : Thread nD τ).loc main_arg3) := Host.s0_keep_arg3 (W0 m ρ c)
theorem L1_arg4 : W1 m ρ c (Proc.devRef .tc main_arg4) = m ((c : Thread nD τ).loc main_arg4) := Host.s0_keep_arg4 (W0 m ρ c)
theorem L1_arg5 : W1 m ρ c (Proc.devRef .tc main_arg5) = m ((c : Thread nD τ).loc main_arg5) := Host.s0_keep_arg5 (W0 m ρ c)
theorem L1_arg6 : W1 m ρ c (Proc.devRef .tc main_arg6) = m ((c : Thread nD τ).loc main_arg6) := Host.s0_keep_arg6 (W0 m ρ c)
theorem L1_arg7 : W1 m ρ c (Proc.devRef .tc main_arg7) = m ((c : Thread nD τ).loc main_arg7) := Host.s0_keep_arg7 (W0 m ρ c)
theorem L1_arg8 : W1 m ρ c (Proc.devRef .tc main_arg8) = m ((c : Thread nD τ).loc main_arg8) := Host.s0_keep_arg8 (W0 m ρ c)

/-! ## After the first product -/

/-- The call's output array: the whole product, which is the reference's `dot_general`. -/
theorem L2_xw : W2 m ρ c (Proc.devRef .tc main_v29) = xw1 m c :=
  (W2_arr m ρ c 2).trans ((Blocks.final0 (V1 m ρ) c).trans (by
    show rowsByCols (A := 100000) (K := 3) (B := 32) (W1 m ρ c (Proc.devRef .tc main_arg0)) (W1 m ρ c (Proc.devRef .tc main_arg3)) = _
    rw [L1_arg0 m ρ c, L1_arg3 m ρ c]
    exact (Cert.MatProd.refDot1 _ _).symm))
theorem L2_src : W2 m ρ c (Proc.devRef .tc main_v1) = srcOf (eE m c) :=
  (W2_of_ne m ρ c main_v1 (by decide)).trans (L1_src m ρ c)
theorem L2_dst : W2 m ρ c (Proc.devRef .tc main_v3) = dstOf (eE m c) :=
  (W2_of_ne m ρ c main_v3 (by decide)).trans (L1_dst m ρ c)
theorem L2_self : W2 m ρ c (Proc.devRef .tc main_v12) = selfColOf (eE m c) :=
  (W2_of_ne m ρ c main_v12 (by decide)).trans (L1_self m ρ c)
theorem L2_norm : W2 m ρ c (Proc.devRef .tc main_v28) = normColOf (eE m c) :=
  (W2_of_ne m ρ c main_v28 (by decide)).trans (L1_norm m ρ c)
theorem L2_arg2 : W2 m ρ c (Proc.devRef .tc main_arg2) = m ((c : Thread nD τ).loc main_arg2) :=
  (W2_of_ne m ρ c main_arg2 (by decide)).trans (L1_arg2 m ρ c)
theorem L2_arg4 : W2 m ρ c (Proc.devRef .tc main_arg4) = m ((c : Thread nD τ).loc main_arg4) :=
  (W2_of_ne m ρ c main_arg4 (by decide)).trans (L1_arg4 m ρ c)
theorem L2_arg5 : W2 m ρ c (Proc.devRef .tc main_arg5) = m ((c : Thread nD τ).loc main_arg5) :=
  (W2_of_ne m ρ c main_arg5 (by decide)).trans (L1_arg5 m ρ c)
theorem L2_arg6 : W2 m ρ c (Proc.devRef .tc main_arg6) = m ((c : Thread nD τ).loc main_arg6) :=
  (W2_of_ne m ρ c main_arg6 (by decide)).trans (L1_arg6 m ρ c)
theorem L2_arg7 : W2 m ρ c (Proc.devRef .tc main_arg7) = m ((c : Thread nD τ).loc main_arg7) :=
  (W2_of_ne m ρ c main_arg7 (by decide)).trans (L1_arg7 m ρ c)
theorem L2_arg8 : W2 m ρ c (Proc.devRef .tc main_arg8) = m ((c : Thread nD τ).loc main_arg8) :=
  (W2_of_ne m ρ c main_arg8 (by decide)).trans (L1_arg8 m ρ c)

/-! ## After the second stretch -/

/-- The neighbour sums, in 128-lane rows. -/
theorem L3_agg : W3 m ρ c (Proc.devRef .tc main_v42)
    = shapeCast S25000x128 (aggOf (xw1 m c) (srcOf (eE m c)) (dstOf (eE m c)) (normColOf (eE m c))) shapeCasts_S100000x32_S25000x128 :=
  (Host.s1_agg (W2 m ρ c)).trans (by rw [L2_xw m ρ c, L2_src m ρ c, L2_dst m ρ c, L2_norm m ρ c])
/-- The product table, in 128-lane rows. -/
theorem L3_xwr : W3 m ρ c (Proc.devRef .tc main_v43) = shapeCast S25000x128 (xw1 m c) shapeCasts_S100000x32_S25000x128 :=
  (Host.s1_xw (W2 m ρ c)).trans (by rw [L2_xw m ρ c])
/-- The self-loop weights over the features, in 128-lane rows. -/
theorem L3_selfr : W3 m ρ c (Proc.devRef .tc main_v45)
    = shapeCast S25000x128 (broadcastInDim S100000x32 ![0, 1] bcast_S100000x1_S100000x32_0_1 (selfColOf (eE m c))) shapeCasts_S100000x32_S25000x128 :=
  (Host.s1_self (W2 m ρ c)).trans (by rw [L2_self m ρ c])
/-- The tiled bias row. -/
theorem L3_biasr : W3 m ρ c (Proc.devRef .tc main_v49)
    = shapeCast S1x128 (shapeCast S128 (broadcastInDim S4x32 ![0, 1] bcast_S1x32_S4x32_0_1 (shapeCast S1x32 (m ((c : Thread nD τ).loc main_arg4)) shapeCasts_S32_S1x32)) shapeCasts_S4x32_S128) shapeCasts_S128_S1x128 :=
  (Host.s1_bias (W2 m ρ c)).trans (by rw [L2_arg4 m ρ c])

theorem L3_src : W3 m ρ c (Proc.devRef .tc main_v1) = srcOf (eE m c) :=
  (Host.s1_keep_v1 (W2 m ρ c)).trans (L2_src m ρ c)
theorem L3_dst : W3 m ρ c (Proc.devRef .tc main_v3) = dstOf (eE m c) :=
  (Host.s1_keep_v3 (W2 m ρ c)).trans (L2_dst m ρ c)
theorem L3_self : W3 m ρ c (Proc.devRef .tc main_v12) = selfColOf (eE m c) :=
  (Host.s1_keep_v12 (W2 m ρ c)).trans (L2_self m ρ c)
theorem L3_norm : W3 m ρ c (Proc.devRef .tc main_v28) = normColOf (eE m c) :=
  (Host.s1_keep_v28 (W2 m ρ c)).trans (L2_norm m ρ c)
theorem L3_arg2 : W3 m ρ c (Proc.devRef .tc main_arg2) = m ((c : Thread nD τ).loc main_arg2) :=
  (Host.s1_keep_arg2 (W2 m ρ c)).trans (L2_arg2 m ρ c)
theorem L3_arg5 : W3 m ρ c (Proc.devRef .tc main_arg5) = m ((c : Thread nD τ).loc main_arg5) :=
  (Host.s1_keep_arg5 (W2 m ρ c)).trans (L2_arg5 m ρ c)
theorem L3_arg6 : W3 m ρ c (Proc.devRef .tc main_arg6) = m ((c : Thread nD τ).loc main_arg6) :=
  (Host.s1_keep_arg6 (W2 m ρ c)).trans (L2_arg6 m ρ c)
theorem L3_arg7 : W3 m ρ c (Proc.devRef .tc main_arg7) = m ((c : Thread nD τ).loc main_arg7) :=
  (Host.s1_keep_arg7 (W2 m ρ c)).trans (L2_arg7 m ρ c)
theorem L3_arg8 : W3 m ρ c (Proc.devRef .tc main_arg8) = m ((c : Thread nD τ).loc main_arg8) :=
  (Host.s1_keep_arg8 (W2 m ρ c)).trans (L2_arg8 m ρ c)

/-! ## After the first combine -/

/-- The combine's output rows: the combine of the four arrays it found. -/
theorem L4_rows : W4 m ρ c (Proc.devRef .tc main_v50)
    = combineRows (R := 25000) (L := 128)
        (shapeCast S25000x128 (aggOf (xw1 m c) (srcOf (eE m c)) (dstOf (eE m c)) (normColOf (eE m c))) shapeCasts_S100000x32_S25000x128)
        (shapeCast S25000x128 (xw1 m c) shapeCasts_S100000x32_S25000x128)
        (shapeCast S25000x128 (broadcastInDim S100000x32 ![0, 1] bcast_S100000x1_S100000x32_0_1 (selfColOf (eE m c))) shapeCasts_S100000x32_S25000x128)
        (shapeCast S1x128 (shapeCast S128 (broadcastInDim S4x32 ![0, 1] bcast_S1x32_S4x32_0_1 (shapeCast S1x32 (m ((c : Thread nD τ).loc main_arg4)) shapeCasts_S32_S1x32)) shapeCasts_S4x32_S128) shapeCasts_S128_S1x128) :=
  (W4_arr m ρ c 4).trans ((Rows.final1 (V3 m ρ) c).trans (by
    show combineRows (R := 25000) (L := 128) (W3 m ρ c (Proc.devRef .tc main_v42)) (W3 m ρ c (Proc.devRef .tc main_v43)) (W3 m ρ c (Proc.devRef .tc main_v45)) (W3 m ρ c (Proc.devRef .tc main_v49)) = _
    rw [L3_agg m ρ c, L3_xwr m ρ c, L3_selfr m ρ c, L3_biasr m ρ c]))

/-- Re-laid as a node table, those rows are the layer's output: the one law of this certificate. -/
theorem L4_table : shapeCast S100000x32 (W4 m ρ c (Proc.devRef .tc main_v50)) shapeCasts_S25000x128_S100000x32 = h1 m c := by
  rw [L4_rows m ρ c]
  exact Cert.Relayout.combine_eq_finish (aggOf (xw1 m c) (srcOf (eE m c)) (dstOf (eE m c)) (normColOf (eE m c))) (xw1 m c) (selfColOf (eE m c)) (m ((c : Thread nD τ).loc main_arg4))
    shapeCasts_S100000x32_S25000x128 shapeCasts_S25000x128_S100000x32 bcast_S100000x1_S100000x32_0_1 shapeCasts_S32_S1x32 bcast_S1x32_S4x32_0_1 shapeCasts_S4x32_S128 shapeCasts_S128_S1x128

theorem L4_src : W4 m ρ c (Proc.devRef .tc main_v1) = srcOf (eE m c) :=
  (W4_of_ne m ρ c main_v1 (by decide)).trans (L3_src m ρ c)
theorem L4_dst : W4 m ρ c (Proc.devRef .tc main_v3) = dstOf (eE m c) :=
  (W4_of_ne m ρ c main_v3 (by decide)).trans (L3_dst m ρ c)
theorem L4_self : W4 m ρ c (Proc.devRef .tc main_v12) = selfColOf (eE m c) :=
  (W4_of_ne m ρ c main_v12 (by decide)).trans (L3_self m ρ c)
theorem L4_norm : W4 m ρ c (Proc.devRef .tc main_v28) = normColOf (eE m c) :=
  (W4_of_ne m ρ c main_v28 (by decide)).trans (L3_norm m ρ c)
theorem L4_arg2 : W4 m ρ c (Proc.devRef .tc main_arg2) = m ((c : Thread nD τ).loc main_arg2) :=
  (W4_of_ne m ρ c main_arg2 (by decide)).trans (L3_arg2 m ρ c)
theorem L4_arg5 : W4 m ρ c (Proc.devRef .tc main_arg5) = m ((c : Thread nD τ).loc main_arg5) :=
  (W4_of_ne m ρ c main_arg5 (by decide)).trans (L3_arg5 m ρ c)
theorem L4_arg6 : W4 m ρ c (Proc.devRef .tc main_arg6) = m ((c : Thread nD τ).loc main_arg6) :=
  (W4_of_ne m ρ c main_arg6 (by decide)).trans (L3_arg6 m ρ c)
theorem L4_arg7 : W4 m ρ c (Proc.devRef .tc main_arg7) = m ((c : Thread nD τ).loc main_arg7) :=
  (W4_of_ne m ρ c main_arg7 (by decide)).trans (L3_arg7 m ρ c)
theorem L4_arg8 : W4 m ρ c (Proc.devRef .tc main_arg8) = m ((c : Thread nD τ).loc main_arg8) :=
  (W4_of_ne m ρ c main_arg8 (by decide)).trans (L3_arg8 m ρ c)

/-! ## After the reshape -/

/-- The second product's left operand: the first layer's output. -/
theorem L5_h : W5 m ρ c (Proc.devRef .tc main_v51) = h1 m c :=
  (Host.s2_h (W4 m ρ c)).trans (L4_table m ρ c)
theorem L5_src : W5 m ρ c (Proc.devRef .tc main_v1) = srcOf (eE m c) :=
  (Host.s2_keep_v1 (W4 m ρ c)).trans (L4_src m ρ c)
theorem L5_dst : W5 m ρ c (Proc.devRef .tc main_v3) = dstOf (eE m c) :=
  (Host.s2_keep_v3 (W4 m ρ c)).trans (L4_dst m ρ c)
theorem L5_self : W5 m ρ c (Proc.devRef .tc main_v12) = selfColOf (eE m c) :=
  (Host.s2_keep_v12 (W4 m ρ c)).trans (L4_self m ρ c)
theorem L5_norm : W5 m ρ c (Proc.devRef .tc main_v28) = normColOf (eE m c) :=
  (Host.s2_keep_v28 (W4 m ρ c)).trans (L4_norm m ρ c)
theorem L5_arg2 : W5 m ρ c (Proc.devRef .tc main_arg2) = m ((c : Thread nD τ).loc main_arg2) :=
  (Host.s2_keep_arg2 (W4 m ρ c)).trans (L4_arg2 m ρ c)
theorem L5_arg5 : W5 m ρ c (Proc.devRef .tc main_arg5) = m ((c : Thread nD τ).loc main_arg5) :=
  (Host.s2_keep_arg5 (W4 m ρ c)).trans (L4_arg5 m ρ c)
theorem L5_arg6 : W5 m ρ c (Proc.devRef .tc main_arg6) = m ((c : Thread nD τ).loc main_arg6) :=
  (Host.s2_keep_arg6 (W4 m ρ c)).trans (L4_arg6 m ρ c)
theorem L5_arg7 : W5 m ρ c (Proc.devRef .tc main_arg7) = m ((c : Thread nD τ).loc main_arg7) :=
  (Host.s2_keep_arg7 (W4 m ρ c)).trans (L4_arg7 m ρ c)
theorem L5_arg8 : W5 m ρ c (Proc.devRef .tc main_arg8) = m ((c : Thread nD τ).loc main_arg8) :=
  (Host.s2_keep_arg8 (W4 m ρ c)).trans (L4_arg8 m ρ c)

/-! ## After the second product -/

/-- The call's output array: the whole product, which is the reference's second `dot_general`. -/
theorem L6_xw : W6 m ρ c (Proc.devRef .tc main_v52) = xw2 m c :=
  (W6_arr m ρ c 2).trans ((Blocks.final2 (V5 m ρ) c).trans (by
    show rowsByCols (A := 100000) (K := 32) (B := 32) (W5 m ρ c (Proc.devRef .tc main_v51)) (W5 m ρ c (Proc.devRef .tc main_arg5)) = _
    rw [L5_h m ρ c, L5_arg5 m ρ c]
    exact (Cert.MatProd.refDot2 _ _).symm))
theorem L6_src : W6 m ρ c (Proc.devRef .tc main_v1) = srcOf (eE m c) :=
  (W6_of_ne m ρ c main_v1 (by decide)).trans (L5_src m ρ c)
theorem L6_dst : W6 m ρ c (Proc.devRef .tc main_v3) = dstOf (eE m c) :=
  (W6_of_ne m ρ c main_v3 (by decide)).trans (L5_dst m ρ c)
theorem L6_self : W6 m ρ c (Proc.devRef .tc main_v12) = selfColOf (eE m c) :=
  (W6_of_ne m ρ c main_v12 (by decide)).trans (L5_self m ρ c)
theorem L6_norm : W6 m ρ c (Proc.devRef .tc main_v28) = normColOf (eE m c) :=
  (W6_of_ne m ρ c main_v28 (by decide)).trans (L5_norm m ρ c)
theorem L6_arg2 : W6 m ρ c (Proc.devRef .tc main_arg2) = m ((c : Thread nD τ).loc main_arg2) :=
  (W6_of_ne m ρ c main_arg2 (by decide)).trans (L5_arg2 m ρ c)
theorem L6_arg6 : W6 m ρ c (Proc.devRef .tc main_arg6) = m ((c : Thread nD τ).loc main_arg6) :=
  (W6_of_ne m ρ c main_arg6 (by decide)).trans (L5_arg6 m ρ c)
theorem L6_arg7 : W6 m ρ c (Proc.devRef .tc main_arg7) = m ((c : Thread nD τ).loc main_arg7) :=
  (W6_of_ne m ρ c main_arg7 (by decide)).trans (L5_arg7 m ρ c)
theorem L6_arg8 : W6 m ρ c (Proc.devRef .tc main_arg8) = m ((c : Thread nD τ).loc main_arg8) :=
  (W6_of_ne m ρ c main_arg8 (by decide)).trans (L5_arg8 m ρ c)

/-! ## After the fourth stretch -/

/-- The neighbour sums, in 128-lane rows. -/
theorem L7_agg : W7 m ρ c (Proc.devRef .tc main_v65)
    = shapeCast S25000x128 (aggOf (xw2 m c) (srcOf (eE m c)) (dstOf (eE m c)) (normColOf (eE m c))) shapeCasts_S100000x32_S25000x128 :=
  (Host.s3_agg (W6 m ρ c)).trans (by rw [L6_xw m ρ c, L6_src m ρ c, L6_dst m ρ c, L6_norm m ρ c])
/-- The product table, in 128-lane rows. -/
theorem L7_xwr : W7 m ρ c (Proc.devRef .tc main_v66) = shapeCast S25000x128 (xw2 m c) shapeCasts_S100000x32_S25000x128 :=
  (Host.s3_xw (W6 m ρ c)).trans (by rw [L6_xw m ρ c])
/-- The self-loop weights over the features, in 128-lane rows. -/
theorem L7_selfr : W7 m ρ c (Proc.devRef .tc main_v68)
    = shapeCast S25000x128 (broadcastInDim S100000x32 ![0, 1] bcast_S100000x1_S100000x32_0_1 (selfColOf (eE m c))) shapeCasts_S100000x32_S25000x128 :=
  (Host.s3_self (W6 m ρ c)).trans (by rw [L6_self m ρ c])
/-- The tiled bias row. -/
theorem L7_biasr : W7 m ρ c (Proc.devRef .tc main_v72)
    = shapeCast S1x128 (shapeCast S128 (broadcastInDim S4x32 ![0, 1] bcast_S1x32_S4x32_0_1 (shapeCast S1x32 (m ((c : Thread nD τ).loc main_arg6)) shapeCasts_S32_S1x32)) shapeCasts_S4x32_S128) shapeCasts_S128_S1x128 :=
  (Host.s3_bias (W6 m ρ c)).trans (by rw [L6_arg6 m ρ c])

theorem L7_arg2 : W7 m ρ c (Proc.devRef .tc main_arg2) = m ((c : Thread nD τ).loc main_arg2) :=
  (Host.s3_keep_arg2 (W6 m ρ c)).trans (L6_arg2 m ρ c)
theorem L7_arg7 : W7 m ρ c (Proc.devRef .tc main_arg7) = m ((c : Thread nD τ).loc main_arg7) :=
  (Host.s3_keep_arg7 (W6 m ρ c)).trans (L6_arg7 m ρ c)
theorem L7_arg8 : W7 m ρ c (Proc.devRef .tc main_arg8) = m ((c : Thread nD τ).loc main_arg8) :=
  (Host.s3_keep_arg8 (W6 m ρ c)).trans (L6_arg8 m ρ c)

/-! ## After the second combine -/

/-- The combine's output rows: the combine of the four arrays it found. -/
theorem L8_rows : W8 m ρ c (Proc.devRef .tc main_v73)
    = combineRows (R := 25000) (L := 128)
        (shapeCast S25000x128 (aggOf (xw2 m c) (srcOf (eE m c)) (dstOf (eE m c)) (normColOf (eE m c))) shapeCasts_S100000x32_S25000x128)
        (shapeCast S25000x128 (xw2 m c) shapeCasts_S100000x32_S25000x128)
        (shapeCast S25000x128 (broadcastInDim S100000x32 ![0, 1] bcast_S100000x1_S100000x32_0_1 (selfColOf (eE m c))) shapeCasts_S100000x32_S25000x128)
        (shapeCast S1x128 (shapeCast S128 (broadcastInDim S4x32 ![0, 1] bcast_S1x32_S4x32_0_1 (shapeCast S1x32 (m ((c : Thread nD τ).loc main_arg6)) shapeCasts_S32_S1x32)) shapeCasts_S4x32_S128) shapeCasts_S128_S1x128) :=
  (W8_arr m ρ c 4).trans ((Rows.final3 (V7 m ρ) c).trans (by
    show combineRows (R := 25000) (L := 128) (W7 m ρ c (Proc.devRef .tc main_v65)) (W7 m ρ c (Proc.devRef .tc main_v66)) (W7 m ρ c (Proc.devRef .tc main_v68)) (W7 m ρ c (Proc.devRef .tc main_v72)) = _
    rw [L7_agg m ρ c, L7_xwr m ρ c, L7_selfr m ρ c, L7_biasr m ρ c]))

/-- Re-laid as a node table, those rows are the layer's output: the one law of this certificate. -/
theorem L8_table : shapeCast S100000x32 (W8 m ρ c (Proc.devRef .tc main_v73)) shapeCasts_S25000x128_S100000x32 = h2 m c := by
  rw [L8_rows m ρ c]
  exact Cert.Relayout.combine_eq_finish (aggOf (xw2 m c) (srcOf (eE m c)) (dstOf (eE m c)) (normColOf (eE m c))) (xw2 m c) (selfColOf (eE m c)) (m ((c : Thread nD τ).loc main_arg6))
    shapeCasts_S100000x32_S25000x128 shapeCasts_S25000x128_S100000x32 bcast_S100000x1_S100000x32_0_1 shapeCasts_S32_S1x32 bcast_S1x32_S4x32_0_1 shapeCasts_S4x32_S128 shapeCasts_S128_S1x128

theorem L8_arg2 : W8 m ρ c (Proc.devRef .tc main_arg2) = m ((c : Thread nD τ).loc main_arg2) :=
  (W8_of_ne m ρ c main_arg2 (by decide)).trans (L7_arg2 m ρ c)
theorem L8_arg7 : W8 m ρ c (Proc.devRef .tc main_arg7) = m ((c : Thread nD τ).loc main_arg7) :=
  (W8_of_ne m ρ c main_arg7 (by decide)).trans (L7_arg7 m ρ c)
theorem L8_arg8 : W8 m ρ c (Proc.devRef .tc main_arg8) = m ((c : Thread nD τ).loc main_arg8) :=
  (W8_of_ne m ρ c main_arg8 (by decide)).trans (L7_arg8 m ρ c)

/-! ## The result -/

/-- The last fold at the result buffer is the specification of the launch contents of the arguments. -/
theorem result : W9 m ρ c (Proc.devRef .tc main_v90)
    = G (F := Ideal) (m ((c : Thread nD τ).loc main_arg0)) (m ((c : Thread nD τ).loc main_arg1)) (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) (m ((c : Thread nD τ).loc main_arg8)) :=
  (Host.s4_out (W8 m ρ c)).trans (by
    rw [L8_table m ρ c, L8_arg2 m ρ c, L8_arg7 m ρ c, L8_arg8 m ρ c]
    rfl)

end Cert.KernelIdeal.Walk

end
-- ==== Proof.RefIsG.lean ====
/-
  The reference program's result is the specification `G` of its argument arrays.

  The reference's run states its result as one closed term of the launch contents of the arguments: the host
  operations composed, every intermediate inlined.  The specification's pieces were spelt as those operations, so
  unfolding them gives back that same term, operation for operation: the degree and its reciprocal square root, the
  edge weights, per layer the product with the weights, the neighbour sum, the self loop, the bias and the relu, and
  last the group mean and the affine map.  Nothing is computed here.
-/
import proofs.«122990_j31868657336593_2_alg».proof.Proof.Spec
import proofs.«122990_j31868657336593_2_alg».proof.Proof.Gen.ReferenceIdeal.Run

noncomputable section

namespace Cert.RefValue

open Cert.ReferenceIdeal Cert.ReferenceIdeal.Gen Idealize.ShloMosaic Idealize.ShloMosaic.TcCoe Idealize.SL.Sem

variable {F : FTy → Type} [FloatOps F]

set_option maxRecDepth 16384 in
/-- The run's result term, unfolded, is `G` unfolded. -/
theorem res_eq_G (m : (ℓ : Loc nD τ sig) → Buf (Elt F) ℓ) (c : Dev nD) :
    Cert.ReferenceIdeal.Value.res_main_v109 (F := F) m c
      = Cert.Spec.G (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) := by
  unfold Cert.ReferenceIdeal.Value.res_main_v109 Cert.Spec.G Cert.Spec.poolOf Cert.Spec.layerOf Cert.Spec.finishOf
    Cert.Spec.aggOf Cert.Spec.selfColOf Cert.Spec.normColOf Cert.Spec.normOf Cert.Spec.dinvOf Cert.Spec.wrapIdx
    Cert.Spec.srcOf Cert.Spec.dstOf
  rfl

end Cert.RefValue

end
-- ==== Proof.lean ====
/-
  The certificate of a two-layer graph convolution with mean pooling: a program whose dense steps run as four
  pipelined kernel calls, against a plain reference.

  Both programs take node features, an edge array, a group number per node and the weights of two layers and of a
  last affine map.  With `deg(n) = 1 + #{edges into n}`, `dinv = deg^(-1/2)` and `norm(e) = dinv(src e) dinv(dst e)`,
  a layer sends the feature table `h` to
        relu( ( Σ_{e into n} (h W)(src e) norm(e)  +  (h W)(n) dinv(n)^2 )  +  b ),
  and the result is the mean of the second layer's output over each group, times the last weights, plus the last bias.

  The kernel program computes each product `h W` block by block on the matrix unit (5000 rows at a time, operands
  narrowed to half precision) and each "self loop + bias + relu" step on a lane-dense re-laying of the node table
  (25000 rows of 128 lanes, the bias tiled four times), also 5000 rows at a time; the gathers and scatter-adds between
  them are the same host operations the reference applies.  On the extended reals a change of float format is the
  identity, a blockwise product is the whole product (one finite sum, re-indexed), and the lane-dense step differs from
  the reference's only in the order of one product, `dinv^2 * xw` against `xw * dinv^2`.  So the two results are one
  function of the arguments, entry by entry; commutativity and associativity are all that is used, and the finiteness
  of the inputs is never opened.

  The three frame claims: the two kernel programs' are the generated frame certificates; the reference has no kernel
  call, and its frame is its run with the result dropped.  The idealization rewrote no operation, so there is nothing
  to preserve.
-/
import proofs.«122990_j31868657336593_2_alg».proof.Defs
import proofs.«122990_j31868657336593_2_alg».proof.Proof.Gen.Kernel
import proofs.«122990_j31868657336593_2_alg».proof.Proof.Gen.Kernel.Skeleton
import proofs.«122990_j31868657336593_2_alg».proof.Proof.Gen.Kernel.Launch
import proofs.«122990_j31868657336593_2_alg».proof.Proof.Gen.Kernel.Points
import proofs.«122990_j31868657336593_2_alg».proof.Proof.Gen.Kernel.Frame
import proofs.«122990_j31868657336593_2_alg».proof.Proof.Gen.KernelIdeal
import proofs.«122990_j31868657336593_2_alg».proof.Proof.Gen.KernelIdeal.Skeleton
import proofs.«122990_j31868657336593_2_alg».proof.Proof.Gen.KernelIdeal.Launch
import proofs.«122990_j31868657336593_2_alg».proof.Proof.Gen.KernelIdeal.Points
import proofs.«122990_j31868657336593_2_alg».proof.Proof.Gen.KernelIdeal.Frame
import proofs.«122990_j31868657336593_2_alg».proof.Proof.Gen.ReferenceIdeal
import proofs.«122990_j31868657336593_2_alg».proof.Proof.Gen.Pre_finite_inputs
import proofs.«122990_j31868657336593_2_alg».proof.Proof.Gen.ReferenceIdeal.Run
import proofs.«122990_j31868657336593_2_alg».proof.Proof.KRun
import proofs.«122990_j31868657336593_2_alg».proof.Proof.Chain
import proofs.«122990_j31868657336593_2_alg».proof.Proof.RefIsG
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The idealized reference runs and keeps its arguments: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both idealized programs end with the specification of those arguments at
    their result: the kernel program by the walk through its folds, the reference by its run. -/
theorem algebraic : Cert.algebraic_KernelIdeal_ReferenceIdeal := by
  intro m ρ m' ρ' _ hagree
  refine ⟨_, (θ_run Cert.KernelIdeal.defs _ _).mono
      (fun r h c => ⟨(h c).1.trans (Cert.KernelIdeal.Walk.result m ρ c), (h c).2⟩)
      (Cert.KernelIdeal.Whole.run_result (F := Ideal) m ρ), ?_⟩
  refine (θ_run Cert.ReferenceIdeal.defs _ _).mono (fun r h c => ⟨(h c).1.trans ?_, (h c).2⟩)
    (Cert.ReferenceIdeal.Value.run (F := Ideal) m' ρ')
  have e := Cert.RefValue.res_eq_G (F := Ideal) m' c
  obtain ⟨a0, a1, a2, a3, a4, a5, a6, a7, a8⟩ := hagree c
  rw [a0, a1, a2, a3, a4, a5, a6, a7, a8] at e
  exact e

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
